-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) (main_arg2 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  main_v13
-- ==== Kernel.lean ====
abbrev S8192x64 : Shape := ⟨2, ![8192, 64]⟩
abbrev S8192x1 : Shape := ⟨2, ![8192, 1]⟩
abbrev S1024x64 : Shape := ⟨2, ![1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S8192x1, .f32⟩
  | .local _ .vmem, ⟨0, _⟩ => ⟨S1024x64, .f32⟩
  | .local _ .vmem, ⟨1, _⟩ => ⟨S1024x64, .f32⟩
  | .local _ .vmem, ⟨2, _⟩ => ⟨S8192x64, .f32⟩
  | .local _ .vmem, ⟨3, _⟩ => ⟨S8192x64, .f32⟩
  | .local _ .vmem, ⟨4, _⟩ => ⟨S1024x64, .f32⟩
  | .local _ .vmem, ⟨5, _⟩ => ⟨S1024x64, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v24 : BitVec 32 := Scalar.muli arg9 c1024_i32
  v24
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c1024_i32 : BitVec 32 := 1024#32
  let v24 : BitVec 32 := Scalar.muli arg9 c1024_i32
  let v25 : BitVec 32 := v24
  let v26 : Index := Scalar.indexCast v25
  let c0_21 : Index := 0#32
  ![v26.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .f32 = 32 ∨ (Rect.block (s := S8192x64) S8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S64x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192x1_S8192x64_0_1 : S8192x1.BroadcastsInDim S8192x64 (![0, 1] : Fin 2 → Fin S8192x64.rank)
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Body.lean ====
/-
  The kernel's body at one grid point, as pure functions of its three input blocks.

  The body fills three scratch blocks — a running row maximum (−∞), a running denominator (0) and a running
  numerator (0) —, scales its block of queries once, and then visits the key and value rows tile by tile: each
  tile's visit replaces the three blocks by functions of themselves, of the scaled queries and of that tile's rows
  of keys and values. After the last tile the first output block is the numerator divided by the denominator and
  the second is the denominator. Here the contents of the scratch blocks after n tiles are shown to be the n-fold
  iterate `stateAt` of one tile's update from the initial fill, and the two output blocks are read off it.
-/
import proofs.«148156_j23270132809797_2_alg».proof.Proof.Gen.KernelIdeal.Frame
import Idealize.ShloMosaic.Lib.Pipeline.Value

set_option maxRecDepth 16384
set_option maxHeartbeats 1600000

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F]

/-! ## A block stored whole and read back whole -/

/-- After a store of `w` through the whole block, made last, a load of the whole block reads `w`, whatever was
    stored before and whatever the buffer held. -/
theorem readAt_writes_cons_whole {sig : RefSig} {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.readAt (Elt F) (Rect.unit off S.size inb).toLoadRect
      (v.writes (Elt F) f ((⟨Rect.unit off S.size inb, w⟩ : View.Piece (Elt F) S e) :: L)) = w := by
  rw [View.readAt_eq_ld, View.read_writes_eq_canon _ _ _
      (fun y => ⟨_, List.mem_cons_self, View.mem_set_unit_zero h inb y⟩),
    View.canon_cons_unit_zero h inb, View.ld_unit_zero h inb]

/-! ## One tile's update and its iterates -/

/-- the three running blocks: row maximum, denominator, numerator -/
abbrev St (F : FTy → Type) [FloatOps F] := Vec F S1024x1 .f32 × Vec F S1024x1 .f32 × Vec F S1024x64 .f32

/-- One tile's update of the running blocks, from the scaled queries `qb` and the tile's key rows `kt` and value
    rows `vt`: every new block is computed from the blocks as the tile finds them. -/
def tileStep (qb : FVec F S1024x64 .bf16) (kt vt : Vec F S1024x64 .f32) (st : St F) : St F :=
  (k0_pay5 (k0_pay8 qb kt st.1), k0_pay11 qb kt st.1 st.1 st.2.1, k0_pay12 qb kt vt st.1 st.1 st.2.2)

/-- The running blocks after the first `n` tiles, from the initial fill (−∞, 0, 0). -/
def stateAt (qb : FVec F S1024x64 .bf16) (kt vt : Fin k0_t1_loop.trips → Vec F S1024x64 .f32) : ℕ → St F
  | 0 => (k0_pay1, k0_pay2, k0_pay3)
  | n + 1 => if h : n < k0_t1_loop.trips then tileStep qb (kt ⟨n, h⟩) (vt ⟨n, h⟩) (stateAt qb kt vt n)
      else stateAt qb kt vt n

theorem stateAt_zero (qb : FVec F S1024x64 .bf16) (kt vt : Fin k0_t1_loop.trips → Vec F S1024x64 .f32) :
    stateAt qb kt vt 0 = (k0_pay1, k0_pay2, k0_pay3) := rfl

theorem stateAt_succ (qb : FVec F S1024x64 .bf16) (kt vt : Fin k0_t1_loop.trips → Vec F S1024x64 .f32)
    (k : Fin k0_t1_loop.trips) :
    stateAt qb kt vt (k.val + 1) = tileStep qb (kt k) (vt k) (stateAt qb kt vt k.val) := by
  show (if h : k.val < k0_t1_loop.trips then _ else _) = _
  rw [dif_pos k.isLt]

/-! ## The scratch blocks after n tiles -/

section Run
variable (𝒱 : Variants) (c : Dev nD) (bd : Option 𝒱.V) (i : grid0.Coords) (arg1 : Memref sig .tc .vmem S1024x64 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole)
  (v12 : Vec F S1024x64 .f32) (X2 : BufTy.Contents (Elt F) arg2.view.ty) (X3 : BufTy.Contents (Elt F) arg3.view.ty)

/-- the whole block of a column of 1024 entries -/
abbrev r1 : Rect S1024x1 := Rect.unit (s := S1024x1) ![0, 0] S1024x1.size inb_S1024x1_S1024x1_0_0
/-- the whole block of 1024 rows of 64 entries -/
abbrev r64 : Rect S1024x64 := Rect.unit (s := S1024x64) ![0, 0] S1024x64.size inb_S1024x64_S1024x64_0_0
/-- tile `k`'s 1024 rows of the key or value array -/
abbrev rK (k : Fin k0_t1_loop.trips) : Rect S8192x64 :=
  Rect.unit (s := S8192x64) (k0_off1 k) S1024x64.size (k0_off1_inb k)

/-- What one tile's visit stores, as the run found it: one whole-block store into each scratch block, each a
    function of the blocks as the visit finds them. -/
theorem tripL_eq (k : Fin k0_t1_loop.trips) (f6 : BufTy.Contents (Elt F) arg6.view.ty)
    (f7 : BufTy.Contents (Elt F) arg7.view.ty) (f8 : BufTy.Contents (Elt F) arg8.view.ty) :
    tripL_k0_t1 𝒱 c bd i arg1 harg1 arg2 harg2 arg3 harg3 arg4 harg4 arg5 harg5 arg6 harg6 arg7 harg7 arg8 harg8 v12 X2 X3 k f6 f7 f8
      = ([⟨r1, k0_pay5 (k0_pay8 (k0_pay4 v12) (arg2.view.readAt (Elt F) (rK k).toLoadRect X2)
              (arg6.view.readAt (Elt F) r1.toLoadRect f6))⟩],
         [⟨r1, k0_pay11 (k0_pay4 v12) (arg2.view.readAt (Elt F) (rK k).toLoadRect X2)
              (arg6.view.readAt (Elt F) r1.toLoadRect f6) (arg6.view.readAt (Elt F) r1.toLoadRect f6)
              (arg7.view.readAt (Elt F) r1.toLoadRect f7)⟩],
         [⟨r64, k0_pay12 (k0_pay4 v12) (arg2.view.readAt (Elt F) (rK k).toLoadRect X2)
              (arg3.view.readAt (Elt F) (rK k).toLoadRect X3)
              (arg6.view.readAt (Elt F) r1.toLoadRect f6) (arg6.view.readAt (Elt F) r1.toLoadRect f6)
              (arg8.view.readAt (Elt F) r64.toLoadRect f8)⟩]) := by
  unfold tripL_k0_t1
  unfold trip_k0_t1
  dsimp only
  sl_unfold_words
  rfl

/-- a column block stored whole, last, and read back whole -/
theorem read_r1 {sig : RefSig} {κ : Kind} {sp : Space} (v : View sig κ sp S1024x1 .f32) (f : v.ty.Contents (Elt F))
    (w : S1024x1.Idx → Elt F .f32) (L : List (View.Piece (Elt F) S1024x1 .f32)) :
    v.readAt (Elt F) r1.toLoadRect (v.writes (Elt F) f ((⟨r1, w⟩ : View.Piece (Elt F) S1024x1 .f32) :: L)) = w :=
  readAt_writes_cons_whole v f (funext fun a => by match a with | ⟨0, _⟩ => rfl | ⟨1, _⟩ => rfl)
    inb_S1024x1_S1024x1_0_0 w L

/-- a block of rows stored whole, last, and read back whole -/
theorem read_r64 {sig : RefSig} {κ : Kind} {sp : Space} (v : View sig κ sp S1024x64 .f32) (f : v.ty.Contents (Elt F))
    (w : S1024x64.Idx → Elt F .f32) (L : List (View.Piece (Elt F) S1024x64 .f32)) :
    v.readAt (Elt F) r64.toLoadRect (v.writes (Elt F) f ((⟨r64, w⟩ : View.Piece (Elt F) S1024x64 .f32) :: L)) = w :=
  readAt_writes_cons_whole v f (funext fun a => by match a with | ⟨0, _⟩ => rfl | ⟨1, _⟩ => rfl)
    inb_S1024x64_S1024x64_0_0 w L

/-- One more tile: if the three scratch blocks, holding the pieces `P` over contents `g6 g7 g8`, read as the blocks
    `st`, then with tile `k`'s stores put in front they read as the tile's update of `st`. -/
theorem scratch_step (k : Fin k0_t1_loop.trips) (g6 : BufTy.Contents (Elt F) arg6.view.ty)
    (g7 : BufTy.Contents (Elt F) arg7.view.ty) (g8 : BufTy.Contents (Elt F) arg8.view.ty)
    (P : List (View.Piece (Elt F) S1024x1 .f32) × List (View.Piece (Elt F) S1024x1 .f32)
      × List (View.Piece (Elt F) S1024x64 .f32)) (st : St F)
    (h6 : arg6.view.readAt (Elt F) r1.toLoadRect (arg6.view.writes (Elt F) g6 P.1) = st.1)
    (h7 : arg7.view.readAt (Elt F) r1.toLoadRect (arg7.view.writes (Elt F) g7 P.2.1) = st.2.1)
    (h8 : arg8.view.readAt (Elt F) r64.toLoadRect (arg8.view.writes (Elt F) g8 P.2.2) = st.2.2) :
    arg6.view.readAt (Elt F) r1.toLoadRect (arg6.view.writes (Elt F) g6
        ((tripL_k0_t1 𝒱 c bd i arg1 harg1 arg2 harg2 arg3 harg3 arg4 harg4 arg5 harg5 arg6 harg6 arg7 harg7 arg8 harg8 v12 X2 X3 k (arg6.view.writes (Elt F) g6 P.1)
          (arg7.view.writes (Elt F) g7 P.2.1) (arg8.view.writes (Elt F) g8 P.2.2)).1 ++ P.1))
      = (tileStep (k0_pay4 v12) (arg2.view.readAt (Elt F) (rK k).toLoadRect X2)
          (arg3.view.readAt (Elt F) (rK k).toLoadRect X3) st).1
    ∧ arg7.view.readAt (Elt F) r1.toLoadRect (arg7.view.writes (Elt F) g7
        ((tripL_k0_t1 𝒱 c bd i arg1 harg1 arg2 harg2 arg3 harg3 arg4 harg4 arg5 harg5 arg6 harg6 arg7 harg7 arg8 harg8 v12 X2 X3 k (arg6.view.writes (Elt F) g6 P.1)
          (arg7.view.writes (Elt F) g7 P.2.1) (arg8.view.writes (Elt F) g8 P.2.2)).2.1 ++ P.2.1))
      = (tileStep (k0_pay4 v12) (arg2.view.readAt (Elt F) (rK k).toLoadRect X2)
          (arg3.view.readAt (Elt F) (rK k).toLoadRect X3) st).2.1
    ∧ arg8.view.readAt (Elt F) r64.toLoadRect (arg8.view.writes (Elt F) g8
        ((tripL_k0_t1 𝒱 c bd i arg1 harg1 arg2 harg2 arg3 harg3 arg4 harg4 arg5 harg5 arg6 harg6 arg7 harg7 arg8 harg8 v12 X2 X3 k (arg6.view.writes (Elt F) g6 P.1)
          (arg7.view.writes (Elt F) g7 P.2.1) (arg8.view.writes (Elt F) g8 P.2.2)).2.2 ++ P.2.2))
      = (tileStep (k0_pay4 v12) (arg2.view.readAt (Elt F) (rK k).toLoadRect X2)
          (arg3.view.readAt (Elt F) (rK k).toLoadRect X3) st).2.2 := by
  rw [tripL_eq]
  dsimp only [List.cons_append, List.nil_append, tileStep]
  refine ⟨?_, ?_, ?_⟩
  · rw [read_r1 (F := F) arg6.view, h6]
  · rw [read_r1 (F := F) arg7.view, h6, h7]
  · rw [read_r64 (F := F) arg8.view, h6, h8]

theorem stateAt_succ' (qb : FVec F S1024x64 .bf16) (kt vt : Fin k0_t1_loop.trips → Vec F S1024x64 .f32)
    (n : ℕ) (h : n < k0_t1_loop.trips) :
    stateAt qb kt vt (n + 1) = tileStep qb (kt ⟨n, h⟩) (vt ⟨n, h⟩) (stateAt qb kt vt n) := by
  show (if h : n < k0_t1_loop.trips then _ else _) = _
  rw [dif_pos h]

/-- After the first `n` tiles the three scratch blocks — whatever they held — hold, over the initial fill, the
    `n`-th iterate of the tile update. -/
theorem scratch_after (d6 : BufTy.Contents (Elt F) arg6.view.ty) (d7 : BufTy.Contents (Elt F) arg7.view.ty)
    (d8 : BufTy.Contents (Elt F) arg8.view.ty) (n : ℕ) (hn : n ≤ k0_t1_loop.trips) :
    arg6.view.readAt (Elt F) r1.toLoadRect (arg6.view.writes (Elt F) (arg6.view.writes (Elt F) d6 [⟨r1, k0_pay1⟩])
        (pb_k0_t1 𝒱 c bd i arg1 harg1 arg2 harg2 arg3 harg3 arg4 harg4 arg5 harg5 arg6 harg6 arg7 harg7 arg8 harg8 v12 X2 X3 (arg6.view.writes (Elt F) d6 [⟨r1, k0_pay1⟩])
          (arg7.view.writes (Elt F) d7 [⟨r1, k0_pay2⟩]) (arg8.view.writes (Elt F) d8 [⟨r64, k0_pay3⟩]) n).1)
      = (stateAt (k0_pay4 v12) (fun k => arg2.view.readAt (Elt F) (rK k).toLoadRect X2)
          (fun k => arg3.view.readAt (Elt F) (rK k).toLoadRect X3) n).1
    ∧ arg7.view.readAt (Elt F) r1.toLoadRect (arg7.view.writes (Elt F) (arg7.view.writes (Elt F) d7 [⟨r1, k0_pay2⟩])
        (pb_k0_t1 𝒱 c bd i arg1 harg1 arg2 harg2 arg3 harg3 arg4 harg4 arg5 harg5 arg6 harg6 arg7 harg7 arg8 harg8 v12 X2 X3 (arg6.view.writes (Elt F) d6 [⟨r1, k0_pay1⟩])
          (arg7.view.writes (Elt F) d7 [⟨r1, k0_pay2⟩]) (arg8.view.writes (Elt F) d8 [⟨r64, k0_pay3⟩]) n).2.1)
      = (stateAt (k0_pay4 v12) (fun k => arg2.view.readAt (Elt F) (rK k).toLoadRect X2)
          (fun k => arg3.view.readAt (Elt F) (rK k).toLoadRect X3) n).2.1
    ∧ arg8.view.readAt (Elt F) r64.toLoadRect (arg8.view.writes (Elt F) (arg8.view.writes (Elt F) d8 [⟨r64, k0_pay3⟩])
        (pb_k0_t1 𝒱 c bd i arg1 harg1 arg2 harg2 arg3 harg3 arg4 harg4 arg5 harg5 arg6 harg6 arg7 harg7 arg8 harg8 v12 X2 X3 (arg6.view.writes (Elt F) d6 [⟨r1, k0_pay1⟩])
          (arg7.view.writes (Elt F) d7 [⟨r1, k0_pay2⟩]) (arg8.view.writes (Elt F) d8 [⟨r64, k0_pay3⟩]) n).2.2)
      = (stateAt (k0_pay4 v12) (fun k => arg2.view.readAt (Elt F) (rK k).toLoadRect X2)
          (fun k => arg3.view.readAt (Elt F) (rK k).toLoadRect X3) n).2.2 := by
  induction n with
  | zero =>
    rw [stateAt_zero, pb_k0_t1.eq_1]
    dsimp only [View.writes_nil]
    exact ⟨read_r1 (F := F) arg6.view d6 k0_pay1 [], read_r1 (F := F) arg7.view d7 k0_pay2 [],
      read_r64 (F := F) arg8.view d8 k0_pay3 []⟩
  | succ n ih =>
    have h : n < k0_t1_loop.trips := hn
    obtain ⟨ih6, ih7, ih8⟩ := ih (Nat.le_of_lt h)
    have hs : pb_k0_t1 𝒱 c bd i arg1 harg1 arg2 harg2 arg3 harg3 arg4 harg4 arg5 harg5 arg6 harg6 arg7 harg7 arg8 harg8 v12 X2 X3 (arg6.view.writes (Elt F) d6 [⟨r1, k0_pay1⟩])
          (arg7.view.writes (Elt F) d7 [⟨r1, k0_pay2⟩]) (arg8.view.writes (Elt F) d8 [⟨r64, k0_pay3⟩]) (n + 1) = _ :=
      pb_k0_t1_succ (F := F) 𝒱 c bd i arg1 harg1 arg2 harg2 arg3 harg3 arg4 harg4 arg5 harg5 arg6 harg6 arg7 harg7 arg8 harg8 v12 X2 X3 (arg6.view.writes (Elt F) d6 [⟨r1, k0_pay1⟩])
          (arg7.view.writes (Elt F) d7 [⟨r1, k0_pay2⟩]) (arg8.view.writes (Elt F) d8 [⟨r64, k0_pay3⟩]) ⟨n, h⟩
    rw [hs, stateAt_succ' _ _ _ n h]
    exact scratch_step (F := F) 𝒱 c bd i arg1 harg1 arg2 harg2 arg3 harg3 arg4 harg4 arg5 harg5 arg6 harg6 arg7 harg7 arg8 harg8 v12 X2 X3 ⟨n, h⟩ _ _ _ _ _ ih6 ih7 ih8

end Run

end Cert.KernelIdeal.Body

end
-- ==== Proof.BodyOut.lean ====
/-
  The two output blocks of one grid point, as functions of the point's block of queries `x0` and of the whole key
  and value arrays `x1`, `x2`: with (m, l, a) the running blocks after all the tiles, the first output block is
  a / l (l broadcast along the rows) and the second is l.
-/
import proofs.«148156_j23270132809797_2_alg».proof.Proof.Body

set_option maxRecDepth 16384
set_option maxHeartbeats 1600000

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F]

/-- The running blocks after all the tiles, from the block of queries and the key and value arrays: tile `k` reads
    rows 1024·k … 1024·k + 1023 of each array. -/
def finalState (x0 : Vec F S1024x64 .f32) (x1 x2 : Vec F S8192x64 .f32) : St F :=
  stateAt (k0_pay4 x0) (fun k => View.ld x1 (rK k)) (fun k => View.ld x2 (rK k)) k0_t1_loop.trips

section Out
variable (c : Dev nD) (i : grid0.Coords) (arg1 : Memref sig .tc .vmem S1024x64 .f32) (harg1 : arg1.IsWhole) (arg2 : Memref sig .tc .vmem S8192x64 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole)
  (x0 : Vec F S1024x64 .f32) (x1 x2 : Vec F S8192x64 .f32)

theorem hz2 : (![0, 0] : Fin 2 → Nat) = fun _ => 0 :=
  funext fun a => by match a with | ⟨0, _⟩ => rfl | ⟨1, _⟩ => rfl

/-- the scratch blocks after the loop, at the body's own loads of its inputs -/
theorem scratch_final :
    arg7.view.readAt (Elt F) r1.toLoadRect (arg7.view.writes (Elt F) (arg7.view.writes (Elt F) arg7.view.junk [⟨r1, k0_pay2⟩])
        (pb_k0_t1 Variants.none c none i arg1 harg1 arg2 harg2 arg3 harg3 arg4 harg4 arg5 harg5 arg6 harg6 arg7 harg7 arg8 harg8
          (arg1.view.readAt (Elt F) r64.toLoadRect (harg1.unread x0)) (harg2.unread x1) (harg3.unread x2)
          (arg6.view.writes (Elt F) arg6.view.junk [⟨r1, k0_pay1⟩])
          (arg7.view.writes (Elt F) arg7.view.junk [⟨r1, k0_pay2⟩]) (arg8.view.writes (Elt F) arg8.view.junk [⟨r64, k0_pay3⟩])
          k0_t1_loop.trips).2.1)
      = (finalState x0 x1 x2).2.1
    ∧ arg8.view.readAt (Elt F) r64.toLoadRect (arg8.view.writes (Elt F) (arg8.view.writes (Elt F) arg8.view.junk [⟨r64, k0_pay3⟩])
        (pb_k0_t1 Variants.none c none i arg1 harg1 arg2 harg2 arg3 harg3 arg4 harg4 arg5 harg5 arg6 harg6 arg7 harg7 arg8 harg8
          (arg1.view.readAt (Elt F) r64.toLoadRect (harg1.unread x0)) (harg2.unread x1) (harg3.unread x2)
          (arg6.view.writes (Elt F) arg6.view.junk [⟨r1, k0_pay1⟩])
          (arg7.view.writes (Elt F) arg7.view.junk [⟨r1, k0_pay2⟩]) (arg8.view.writes (Elt F) arg8.view.junk [⟨r64, k0_pay3⟩])
          k0_t1_loop.trips).2.2)
      = (finalState x0 x1 x2).2.2 := by
  have hh := scratch_after (F := F) Variants.none c none i arg1 harg1 arg2 harg2 arg3 harg3 arg4 harg4 arg5 harg5 arg6 harg6 arg7 harg7 arg8 harg8
    (arg1.view.readAt (Elt F) r64.toLoadRect (harg1.unread x0)) (harg2.unread x1) (harg3.unread x2)
    arg6.view.junk arg7.view.junk arg8.view.junk k0_t1_loop.trips le_rfl
  have e0 : arg1.view.readAt (Elt F) r64.toLoadRect (harg1.unread x0) = x0 := by
    rw [View.readAt_eq_ld, harg1.read_unread, View.ld_unit_zero hz2]
  have e1 : (fun k => arg2.view.readAt (Elt F) (rK k).toLoadRect (harg2.unread x1)) = fun k => View.ld x1 (rK k) :=
    funext fun k => by rw [View.readAt_eq_ld, harg2.read_unread]
  have e2 : (fun k => arg3.view.readAt (Elt F) (rK k).toLoadRect (harg3.unread x2)) = fun k => View.ld x2 (rK k) :=
    funext fun k => by rw [View.readAt_eq_ld, harg3.read_unread]
  rw [e1, e2] at hh
  unfold finalState
  refine ⟨hh.2.1.trans ?_, hh.2.2.trans ?_⟩
  · rw [e0]
  · rw [e0]

/-- The second output block is the denominator after all the tiles. -/
theorem out4_eq : out0_A_4 c i arg1 harg1 arg2 harg2 arg3 harg3 arg4 harg4 arg5 harg5 arg6 harg6 arg7 harg7 arg8 harg8 x0 x1 x2 = (finalState x0 x1 x2).2.1 := by
  unfold out0_A_4
  rw [View.read_writes_eq_canon _ _ _ (cover0_A_4 c i arg1 harg1 arg2 harg2 arg3 harg3 arg4 harg4 arg5 harg5 arg6 harg6 arg7 harg7 arg8 harg8 x0 x1 x2)]
  unfold kernelRun0_A
  dsimp only
  sl_unfold_words
  rw [View.canon_unit_zero hz2, View.writes_append]
  exact (scratch_final c i arg1 harg1 arg2 harg2 arg3 harg3 arg4 harg4 arg5 harg5 arg6 harg6 arg7 harg7 arg8 harg8 x0 x1 x2).1

/-- The first output block is the numerator after all the tiles divided by the denominator. -/
theorem out3_eq : out0_A_3 c i arg1 harg1 arg2 harg2 arg3 harg3 arg4 harg4 arg5 harg5 arg6 harg6 arg7 harg7 arg8 harg8 x0 x1 x2
    = k0_pay6 (finalState x0 x1 x2).2.2 (finalState x0 x1 x2).2.1 := by
  unfold out0_A_3
  rw [View.read_writes_eq_canon _ _ _ (cover0_A_3 c i arg1 harg1 arg2 harg2 arg3 harg3 arg4 harg4 arg5 harg5 arg6 harg6 arg7 harg7 arg8 harg8 x0 x1 x2)]
  unfold kernelRun0_A
  dsimp only
  sl_unfold_words
  rw [View.canon_unit_zero hz2, View.writes_append, View.writes_append]
  rw [(scratch_final c i arg1 harg1 arg2 harg2 arg3 harg3 arg4 harg4 arg5 harg5 arg6 harg6 arg7 harg7 arg8 harg8 x0 x1 x2).1, (scratch_final c i arg1 harg1 arg2 harg2 arg3 harg3 arg4 harg4 arg5 harg5 arg6 harg6 arg7 harg7 arg8 harg8 x0 x1 x2).2]

end Out

end Cert.KernelIdeal.Body

end
-- ==== Proof.LibMatrixAtIndex.lean ====
/-
  Vector operations of a graph-convolution layer body read at one index, at the exact (extended-real) instance and
  over arbitrary extents: a row sum and a row maximum of a matrix; the column shapes a keep-dimension reduction
  passes through; a matrix product into a zero accumulator for each of the three ways its two operands are
  contracted (rows against columns, rows against rows, columns against columns); the select that puts one where a
  shifted row number meets a column number; a row-wise log-softmax; the literals 1 and -∞.
-/
import Idealize.ShloMosaic.PureOps
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A reduction along the rows of a matrix -/

section Rows
variable {a b : Nat} {φ : FTy}

/-- The index over row `r` with column `k` inserted is `(r, k)`. -/
theorem lift_row (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows, at row `r`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A maximum along the rows, at row `r`: the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (Finset.fold max (Ideal.ofBits φ acc) · Finset.univ) (funext fun k => congrArg src (lift_row h r k)))

end Rows

/-! ## Column shapes -/

section Columns
variable {α : Type} {a b : Nat}

/-- A vector cast to a one-column matrix reads, at `(i, u)`, the vector at `i`. -/
theorem shapeCast_col_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A matrix product into a zero accumulator, for each way the two operands are contracted -/

section Dot
variable {sl sr so : Shape} (d : DotDims sl sr so)

/-- On a kept axis of the left operand (no batch axes) the operand index is the result index's coordinate at
    that axis's position among the kept axes. -/
theorem lhsIdx_val_kept (hb : d.lhsBatch = []) {al : Fin sl.rank} (hn : al ∈ d.lhsNonContracting) {p : Nat}
    (hp : d.lhsNonContracting.idxOf al = p) (hpo : p < so.rank) (j : so.Idx) (q : d.contr.Idx) :
    (d.lhsIdx j q al).val = (j ⟨p, hpo⟩).val := by
  have hnb : al ∉ d.lhsBatch := by rw [hb]; exact List.not_mem_nil
  unfold DotDims.lhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hb, hp]; simp)

/-- On a kept axis of the right operand (no batch axes) the operand index is the result index's coordinate at
    that axis's position after the left operand's kept axes. -/
theorem rhsIdx_val_kept (hlb : d.lhsBatch = []) (hb : d.rhsBatch = []) {ar : Fin sr.rank} (hn : ar ∈ d.rhsNonContracting)
    {p : Nat} (hp : d.lhsNonContracting.length + d.rhsNonContracting.idxOf ar = p) (hpo : p < so.rank) (j : so.Idx)
    (q : d.contr.Idx) : (d.rhsIdx j q ar).val = (j ⟨p, hpo⟩).val := by
  have hnb : ar ∉ d.rhsBatch := by rw [hb]; exact List.not_mem_nil
  unfold DotDims.rhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hlb, ← hp]; simp)

end Dot

section Products
variable {m k n : Nat}

/-- Rows of the left operand against columns of the right: `(A·B)(i,c) = Σ_f A(i,f)·B(f,c)`. -/
theorem matmul_rowcol_apply (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ .f32) (B : FVec Ideal ⟨2, ![k, n]⟩ .f32) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-- Rows of the left operand against rows of the right: `Σ_e A(i,e)·B(j,e)`. -/
theorem matmul_rowrow_apply (d : DotDims ⟨2, ![m, k]⟩ ⟨2, ![n, k]⟩ ⟨2, ![m, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (A : FVec Ideal ⟨2, ![m, k]⟩ .f32) (B : FVec Ideal ⟨2, ![n, k]⟩ .f32) (i : Fin m) (j : Fin n) :
    matmul d prec A B (constant (F := Ideal) ⟨2, ![m, n]⟩ .f32 0x00000000#32) (ix2 i j)
      = ∑ e : Fin k, A (ix2 i e) * B (ix2 j e) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun e _ => ?_
  have hk := contrEquiv1_symm_val d k hr hs e
  have el : d.lhsIdx (ix2 i j) ((contrEquiv1 d k hr hs).symm e) = ix2 i e := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i j) ((contrEquiv1 d k hr hs).symm e) = ix2 j e := funext fun ax => Fin.ext (by
    match ax with
    | ⟨0, _⟩ =>
      exact rhsIdx_val_kept d hlb hrb (ar := 0) (by rw [hrn]; exact List.mem_singleton.mpr rfl) (p := 1)
        (by rw [hln, hrn]; rfl) Nat.one_lt_two _ _
    | ⟨1, _⟩ => exact (d.rhsIdx_val_of_single hrc _ _).trans hk)
  rw [el, er]

/-- Columns of the left operand against columns of the right: `Σ_v A(v,i)·B(v,j)`. -/
theorem matmul_colcol_apply (d : DotDims ⟨2, ![k, m]⟩ ⟨2, ![k, n]⟩ ⟨2, ![m, n]⟩)
    (hlb : d.lhsBatch = []) (hrb : d.rhsBatch = []) (hln : d.lhsNonContracting = [1]) (hrn : d.rhsNonContracting = [1])
    (hlc : d.lhsContracting = [0]) (hrc : d.rhsContracting = [0])
    (hr : d.contr.rank = 1) (hs : d.contr.size ⟨0, by omega⟩ = k) (prec : Option ContractPrecision)
    (A : FVec Ideal ⟨2, ![k, m]⟩ .f32) (B : FVec Ideal ⟨2, ![k, n]⟩ .f32) (i : Fin m) (j : Fin n) :
    matmul d prec A B (constant (F := Ideal) ⟨2, ![m, n]⟩ .f32 0x00000000#32) (ix2 i j)
      = ∑ v : Fin k, A (ix2 v i) * B (ix2 v j) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun v _ => ?_
  have hk := contrEquiv1_symm_val d k hr hs v
  have el : d.lhsIdx (ix2 i j) ((contrEquiv1 d k hr hs).symm v) = ix2 v i := funext fun ax => Fin.ext (by
    match ax with
    | ⟨0, _⟩ => exact (d.lhsIdx_val_of_single hlc _ _).trans hk
    | ⟨1, _⟩ =>
      exact lhsIdx_val_kept d hlb (al := 1) (by rw [hln]; exact List.mem_singleton.mpr rfl) (p := 0)
        (by rw [hln]; rfl) Nat.zero_lt_two _ _)
  have er : d.rhsIdx (ix2 i j) ((contrEquiv1 d k hr hs).symm v) = ix2 v j := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

end Products

/-! ## The diagonal test and the float literals -/

section Words

/-- Row `g·256 + r` against column `j`, compared as 32-bit words that do not wrap: the select is the `if`. -/
theorem select_shifted_eq {α : Type} (g r j : Nat) (hrow : g * 256 + r < 2 ^ 32) (hj : j < 2 ^ 32) (x y : α) :
    Scalar.select (IntOp.cmpi .eq (IntOp.addi (Scalar.muli (BitVec.ofNat 32 g) 256#32) (BitVec.ofNat 32 r))
        (BitVec.ofNat 32 j)) x y = if g * 256 + r = j then x else y := by
  have h1 : IntOp.addi (Scalar.muli (BitVec.ofNat 32 g) 256#32) (BitVec.ofNat 32 r) = BitVec.ofNat 32 (g * 256 + r) := by
    show BitVec.ofNat 32 g * BitVec.ofNat 32 256 + BitVec.ofNat 32 r = _
    rw [BitVec.ofNat_add, BitVec.ofNat_mul]
  rw [h1]
  have h2 : IntOp.cmpi .eq (BitVec.ofNat 32 (g * 256 + r)) (BitVec.ofNat 32 j) = (1 : BitVec 1) ↔ g * 256 + r = j := by
    show BitVec.ofBool (BitVec.ofNat 32 (g * 256 + r) == BitVec.ofNat 32 j) = (1 : BitVec 1) ↔ _
    constructor
    · intro h
      have hb : (BitVec.ofNat 32 (g * 256 + r) == BitVec.ofNat 32 j) = true := by
        cases hc : (BitVec.ofNat 32 (g * 256 + r) == BitVec.ofNat 32 j)
        · rw [hc] at h; exact absurd h (by decide)
        · rfl
      have he := congrArg BitVec.toNat (eq_of_beq hb)
      rw [BitVec.toNat_ofNat, BitVec.toNat_ofNat, Nat.mod_eq_of_lt hrow, Nat.mod_eq_of_lt hj] at he
      exact he
    · intro h
      rw [h, beq_self_eq_true]
      rfl
  unfold Scalar.select
  by_cases h : g * 256 + r = j
  · rw [if_pos h, if_pos (h2.mpr h)]
  · rw [if_neg h, if_neg (mt h2.mp h)]

/-- The word `0x3F800000` is the number one. -/
theorem ofBits_one_f32 : Ideal.ofBits .f32 0x3F800000#32 = 1 := IdealRules.sign_bit.ideal_onePat .f32

/-- The word `0xFF800000` is `-∞`. -/
theorem ofBits_negInf_f32 : Ideal.ofBits .f32 0xFF800000#32 = ⊥ := by
  simp [Ideal.ofBits, Ideal.ieee]

end Words

/-! ## One on the shifted diagonal, and a row-wise log-softmax -/

section Diagonal
variable {a b : Nat}

/-- The select that puts one where row `g·256 + r` meets column `j` and keeps `X` elsewhere, read at `(r, j)`. -/
theorem select_diag_apply (g : Nat) (h0 : (⟨2, ![a, b]⟩ : Shape).Iotas .tc 32 [0])
    (h1 : (⟨2, ![a, b]⟩ : Shape).Iotas .tc 32 [1]) (X : FVec Ideal ⟨2, ![a, b]⟩ .f32) (r : Fin a) (j : Fin b)
    (hrow : g * 256 + r.val < 2 ^ 32) (hj : j.val < 2 ^ 32) :
    select (cmpi .eq (addi (broadcast ⟨2, ![a, b]⟩ (Scalar.muli (BitVec.ofNat 32 g) 256#32))
          (iota .tc ⟨2, ![a, b]⟩ 32 [0] h0)) (iota .tc ⟨2, ![a, b]⟩ 32 [1] h1))
        (broadcast ⟨2, ![a, b]⟩ (Scalar.ofBits (F := Ideal) .f32 0x3F800000#32)) X (ix2 r j)
      = if g * 256 + r.val = j.val then (1 : EReal) else X (ix2 r j) := by
  show Scalar.select (IntOp.cmpi .eq (IntOp.addi (Scalar.muli (BitVec.ofNat 32 g) 256#32)
        (iota .tc ⟨2, ![a, b]⟩ 32 [0] h0 (ix2 r j))) (iota .tc ⟨2, ![a, b]⟩ 32 [1] h1 (ix2 r j)))
      (Ideal.ofBits .f32 0x3F800000#32) (X (ix2 r j)) = _
  rw [iota_single_apply, iota_single_apply, ofBits_one_f32]
  exact select_shifted_eq g r.val j.val hrow hj 1 (X (ix2 r j))

/-- The row-wise log-softmax as the layer body spells it — the row maximum kept as a column, subtracted, the
    exponentials summed along the row, the logarithm of the sum kept as a column and subtracted — read at `(r, c)`:
    `(Y(r,c) − M) − log Σ_k exp (Y(r,k) − M)` with `M` the maximum of row `r` from `-∞`. -/
theorem logSoftmax_rows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b)
    (x : Fin b → EReal) (hx : ∀ k, Y (ix2 r k) = x k) :
    subf (subf Y (broadcastTo ⟨2, ![a, b]⟩ (shapeCast ⟨2, ![a, 1]⟩
            (multiReduction .maximumf [1] ⟨1, ![a]⟩ Y 0xFF800000#32 hR hφ hmax) hC) hB))
        (broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB) (ix2 r c)
      = (x c - (Finset.univ : Finset (Fin b)).fold max ⊥ x)
          - Ideal.log (∑ k : Fin b, Ideal.exp (x k - (Finset.univ : Finset (Fin b)).fold max ⊥ x)) := by
  have hx' : (fun k => Y (ix2 r k)) = x := funext hx
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = (Finset.univ : Finset (Fin b)).fold max ⊥ x := fun k => by
    rw [broadcastTo_col_apply, shapeCast_col_apply, rowMax_apply, ofBits_negInf_f32, hx']
  show (Y (ix2 r c) - broadcastTo ⟨2, ![a, b]⟩ (shapeCast ⟨2, ![a, 1]⟩
          (multiReduction .maximumf [1] ⟨1, ![a]⟩ Y 0xFF800000#32 hR hφ hmax) hC) hB (ix2 r c))
        - broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB (ix2 r c) = _
  rw [hM c, broadcastTo_col_apply, hx c]
  show _ - Ideal.log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC (ix2 r (0 : Fin 1))) = _
  rw [shapeCast_col_apply, rowSum_apply]
  refine congrArg (fun s => _ - Ideal.log s) (Finset.sum_congr rfl fun k _ => ?_)
  show Ideal.exp (Y (ix2 r k) - broadcastTo ⟨2, ![a, b]⟩ (shapeCast ⟨2, ![a, 1]⟩
          (multiReduction .maximumf [1] ⟨1, ![a]⟩ Y 0xFF800000#32 hR hφ hmax) hC) hB (ix2 r k)) = _
  rw [hM k, hx k]

end Diagonal

end Cert.KernelIdeal.Pay

end
-- ==== Proof.LibFmax.lean ====
/-
  The maximum of a finite family of extended reals, taken from -∞ (the fold of max over the family).
-/
import Mathlib.Data.EReal.Basic
import Mathlib.Data.Fintype.Basic
import Mathlib.Data.Fintype.BigOperators

namespace Cert.Attn

/-- The maximum of a finite family of extended reals, from -∞. -/
noncomputable def fmax {n : ℕ} (f : Fin n → EReal) : EReal := (Finset.univ : Finset (Fin n)).fold max ⊥ f

end Cert.Attn
-- ==== Proof.LibOnlineSoftmax.lean ====
/-
  Online softmax over key tiles equals the one-pass softmax-weighted sum, on the extended reals.

  A row of T * K scores s (each -∞ or a real, the first one a real) and real values v is read in T tiles of
  width K. A running state (m, d, a) — the maximum so far, the denominator and the numerator of the weighted sum,
  both taken relative to m — starts at (-∞, 0, 0); a tile with scores s' and values v' updates it to
    m' = max m (max s'),  d' = exp (m - m') · d + ∑ⱼ exp (s'ⱼ - m'),  a' = exp (m - m') · a + ∑ⱼ exp (s'ⱼ - m') · v'ⱼ.
  After n ≥ 1 tiles m is the real maximum M of the scores read so far, d = ∑ᵢ exp (sᵢ - M) and
  a = ∑ᵢ exp (sᵢ - M) · vᵢ over them (exp (-∞) = 0; exp (m - m') · exp (sᵢ - m) = exp (sᵢ - m') on the reals),
  so after all the tiles a / d = ∑ᵢ (exp (sᵢ - M) / ∑ᵢ' exp (sᵢ' - M)) · vᵢ with M the maximum of the row: the
  softmax of the row, taken with its maximum subtracted, against v. A tile that is entirely -∞ leaves a state
  with a real maximum unchanged, so such tiles at the end of the row may be skipped.
-/
import Idealize.ShloMosaic.PureOps.Ideal
import Mathlib.Algebra.BigOperators.Fin
import Mathlib.Algebra.Order.BigOperators.Group.Finset
import Mathlib.Data.Finset.Lattice.Fold
import proofs.«148156_j23270132809797_2_alg».proof.Proof.LibFmax

noncomputable section

namespace Cert.Softmax

open Cert.Attn Idealize.ShloMosaic
open scoped BigOperators

/-! ### The recurrence -/

/-- column j of tile t in the flat numbering of T tiles of width K -/
def tileIx (T K : ℕ) (t : Fin T) (j : Fin K) : Fin (T * K) :=
  ⟨t.val * K + j.val,
    calc t.val * K + j.val < t.val * K + K := Nat.add_lt_add_left j.isLt _
      _ = (t.val + 1) * K := (Nat.succ_mul _ _).symm
      _ ≤ T * K := Nat.mul_le_mul_right _ t.isLt⟩

/-- one tile's update of a row's running (maximum, denominator, numerator at one output column) -/
def step {K : ℕ} (st : EReal × EReal × EReal) (s v : Fin K → EReal) : EReal × EReal × EReal :=
  (max st.1 (fmax s),
   Ideal.exp (st.1 - max st.1 (fmax s)) * st.2.1 + ∑ j : Fin K, Ideal.exp (s j - max st.1 (fmax s)),
   Ideal.exp (st.1 - max st.1 (fmax s)) * st.2.2 + ∑ j : Fin K, Ideal.exp (s j - max st.1 (fmax s)) * v j)

/-- the state after the first n tiles, from (-∞, 0, 0) -/
def run (T K : ℕ) (s v : Fin (T * K) → EReal) : ℕ → EReal × EReal × EReal
  | 0 => (⊥, 0, 0)
  | n + 1 => if h : n < T then step (run T K s v n) (fun j => s (tileIx T K ⟨n, h⟩ j)) (fun j => v (tileIx T K ⟨n, h⟩ j)) else run T K s v n

theorem run_zero (T K : ℕ) (s v : Fin (T * K) → EReal) : run T K s v 0 = (⊥, 0, 0) := rfl

theorem run_succ_of_lt (T K : ℕ) (s v : Fin (T * K) → EReal) (n : ℕ) (h : n < T) :
    run T K s v (n + 1)
      = step (run T K s v n) (fun j => s (tileIx T K ⟨n, h⟩ j)) (fun j => v (tileIx T K ⟨n, h⟩ j)) := by
  show (if h : n < T then _ else _) = _
  rw [dif_pos h]

theorem run_succ_of_ge (T K : ℕ) (s v : Fin (T * K) → EReal) (n : ℕ) (h : T ≤ n) :
    run T K s v (n + 1) = run T K s v n := by
  show (if h : n < T then _ else _) = _
  rw [dif_neg (Nat.not_lt.mpr h)]

/-- past the last tile the state no longer moves -/
theorem run_of_ge (T K : ℕ) (s v : Fin (T * K) → EReal) (n : ℕ) (h : T ≤ n) :
    run T K s v n = run T K s v T := by
  induction n, h using Nat.le_induction with
  | base => rfl
  | succ n h ih => rw [run_succ_of_ge T K s v n h, ih]

/-! ### Extended reals that are -∞ or real -/

/-- the maximum of a family of values that are -∞ or real is -∞ or real -/
theorem fmax_bot_or_coe {n : ℕ} (f : Fin n → EReal) (hf : ∀ i, f i = ⊥ ∨ ∃ r : ℝ, f i = (r : EReal)) :
    fmax f = ⊥ ∨ ∃ r : ℝ, fmax f = (r : EReal) := by
  refine Finset.sup_induction (p := fun a : EReal => a = ⊥ ∨ ∃ r : ℝ, a = (r : EReal)) (Or.inl rfl) ?_
    (fun i _ => hf i)
  intro a ha b hb
  rcases max_choice a b with h | h
  · rw [show a ⊔ b = a from h]; exact ha
  · rw [show a ⊔ b = b from h]; exact hb

theorem le_fmax {n : ℕ} (f : Fin n → EReal) (i : Fin n) : f i ≤ fmax f :=
  Finset.le_sup (f := f) (Finset.mem_univ i)

theorem fmax_le {n : ℕ} (f : Fin n → EReal) (a : EReal) (h : ∀ i, f i ≤ a) : fmax f ≤ a :=
  Finset.sup_le (fun i _ => h i)

theorem fmax_bot {n : ℕ} : fmax (fun _ : Fin n => (⊥ : EReal)) = ⊥ :=
  Finset.sup_bot _

/-- a value that is -∞ or real and at least a real is real -/
theorem coe_of_coe_le {a : EReal} (ha : a = ⊥ ∨ ∃ r : ℝ, a = (r : EReal)) {r0 : ℝ} (h : (r0 : EReal) ≤ a) :
    ∃ r : ℝ, a = (r : EReal) := by
  rcases ha with ha | ha
  · exact absurd (le_bot_iff.mp (ha ▸ h)) (EReal.coe_ne_bot r0)
  · exact ha

/-- exp (a - m) as a real, for a that is -∞ or real and m real -/
def ew (a : EReal) (m : ℝ) : ℝ := if a = ⊥ then 0 else Real.exp (a.toReal - m)

theorem exp_sub_coe (a : EReal) (ha : a = ⊥ ∨ ∃ r : ℝ, a = (r : EReal)) (m : ℝ) :
    Ideal.exp (a - (m : EReal)) = ((ew a m : ℝ) : EReal) := by
  rcases ha with ha | ⟨r, ha⟩
  · rw [ha, EReal.bot_sub, Ideal.exp_bot, ew, if_pos rfl, EReal.coe_zero]
  · rw [ha, ← EReal.coe_sub, Ideal.exp_coe, ew, if_neg (EReal.coe_ne_bot r), EReal.toReal_coe]

theorem ew_nonneg (a : EReal) (m : ℝ) : 0 ≤ ew a m := by
  unfold ew; split
  · exact le_refl 0
  · exact (Real.exp_pos _).le

theorem ew_coe_pos (r m : ℝ) : 0 < ew (r : EReal) m := by
  rw [ew, if_neg (EReal.coe_ne_bot r)]; exact Real.exp_pos _

/-- changing the reference maximum from m to m' multiplies by exp (m - m') -/
theorem ew_rescale (a : EReal) (m m' : ℝ) : ew (m : EReal) m' * ew a m = ew a m' := by
  rw [ew, if_neg (EReal.coe_ne_bot m), EReal.toReal_coe]
  unfold ew; split
  · exact mul_zero _
  · rw [← Real.exp_add]; congr 1; ring

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### One tile's update, on the reals -/

/-- one tile's update of a state whose maximum is -∞ or real and whose sums are real, the new maximum being the
    real m' -/
theorem step_coe {K : ℕ} (M : EReal) (hM : M = ⊥ ∨ ∃ r : ℝ, M = (r : EReal)) (D N : ℝ) (s v : Fin K → EReal)
    (hs : ∀ j, s j = ⊥ ∨ ∃ r : ℝ, s j = (r : EReal)) (vr : Fin K → ℝ) (hv : ∀ j, v j = (vr j : EReal)) (m' : ℝ)
    (hm' : max M (fmax s) = (m' : EReal)) :
    step (M, (D : EReal), (N : EReal)) s v
      = ((m' : EReal), ((ew M m' * D + ∑ j, ew (s j) m' : ℝ) : EReal),
          ((ew M m' * N + ∑ j, ew (s j) m' * vr j : ℝ) : EReal)) := by
  unfold step
  simp only [hm']
  rw [exp_sub_coe M hM m']
  refine Prod.ext rfl (Prod.ext ?_ ?_)
  · show _ * (D : EReal) + ∑ j : Fin K, Ideal.exp (s j - (m' : EReal))
      = ((ew M m' * D + ∑ j, ew (s j) m' : ℝ) : EReal)
    rw [EReal.coe_add, EReal.coe_mul, coe_sum]
    congr 1
    exact Finset.sum_congr rfl (fun j _ => exp_sub_coe (s j) (hs j) m')
  · show _ * (N : EReal) + ∑ j : Fin K, Ideal.exp (s j - (m' : EReal)) * v j
      = ((ew M m' * N + ∑ j, ew (s j) m' * vr j : ℝ) : EReal)
    rw [EReal.coe_add, EReal.coe_mul, coe_sum]
    congr 1
    refine Finset.sum_congr rfl (fun j _ => ?_)
    rw [exp_sub_coe (s j) (hs j) m', hv j, EReal.coe_mul]

/-- a tile that is entirely -∞ leaves a state with a real maximum unchanged -/
theorem step_masked {K : ℕ} (st : EReal × EReal × EReal) (hm : ∃ r : ℝ, st.1 = (r : EReal)) (v : Fin K → EReal) :
    step st (fun _ : Fin K => (⊥ : EReal)) v = st := by
  obtain ⟨r, hr⟩ := hm
  obtain ⟨a, d, n⟩ := st
  simp only at hr
  subst hr
  have h1 : Ideal.exp ((r : EReal) - (r : EReal)) = 1 := by
    rw [← EReal.coe_sub, sub_self, Ideal.exp_coe, Real.exp_zero, EReal.coe_one]
  have h2 : Ideal.exp ((⊥ : EReal) - (r : EReal)) = 0 := by rw [EReal.bot_sub, Ideal.exp_bot]
  unfold step
  simp only [fmax_bot, max_bot_right, h1, h2, one_mul, zero_mul, Finset.sum_const_zero, add_zero]

/-! ### Sums over the first tiles -/

/-- the sum of f over the columns of the first n tiles -/
def psum (T K : ℕ) (n : ℕ) (f : Fin (T * K) → ℝ) : ℝ :=
  ∑ t : Fin T, ∑ j : Fin K, if t.val < n then f (tileIx T K t j) else 0

theorem psum_zero (T K : ℕ) (f : Fin (T * K) → ℝ) : psum T K 0 f = 0 := by
  simp [psum]

theorem psum_succ (T K : ℕ) (n : ℕ) (h : n < T) (f : Fin (T * K) → ℝ) :
    psum T K (n + 1) f = psum T K n f + ∑ j : Fin K, f (tileIx T K ⟨n, h⟩ j) := by
  unfold psum
  have key : ∀ t : Fin T, (∑ j : Fin K, if t.val < n + 1 then f (tileIx T K t j) else 0)
      = (∑ j : Fin K, if t.val < n then f (tileIx T K t j) else 0)
        + (if t = ⟨n, h⟩ then ∑ j : Fin K, f (tileIx T K ⟨n, h⟩ j) else 0) := by
    intro t
    by_cases h1 : t.val < n
    · have h2 : t ≠ ⟨n, h⟩ := fun e => by rw [e] at h1; exact lt_irrefl _ h1
      simp only [h1, Nat.lt_succ_of_lt h1, if_true, if_neg h2, add_zero]
    · by_cases h2 : t = ⟨n, h⟩
      · subst h2
        simp only [Nat.lt_succ_self, lt_irrefl, if_true, if_false, Finset.sum_const_zero, zero_add]
      · have h3 : ¬ t.val < n + 1 := fun h3 => h2 (Fin.ext (by
          have : t.val = n := by omega
          exact this))
        simp only [h1, h3, if_false, if_neg h2, Finset.sum_const_zero, add_zero]
  rw [Finset.sum_congr rfl (fun t _ => key t), Finset.sum_add_distrib, Finset.sum_ite_eq' (Finset.univ : Finset (Fin T)) (⟨n, h⟩ : Fin T),
    if_pos (Finset.mem_univ _)]

theorem mul_psum (T K : ℕ) (c : ℝ) (n : ℕ) (f : Fin (T * K) → ℝ) :
    c * psum T K n f = psum T K n (fun i => c * f i) := by
  unfold psum
  rw [Finset.mul_sum]
  refine Finset.sum_congr rfl (fun t _ => ?_)
  rw [Finset.mul_sum]
  refine Finset.sum_congr rfl (fun j _ => ?_)
  split
  · rfl
  · exact mul_zero c

/-- the tiles' numbering is the standard one of pairs -/
theorem tileIx_eq (T K : ℕ) (t : Fin T) (j : Fin K) : tileIx T K t j = finProdFinEquiv (t, j) := by
  apply Fin.ext
  show t.val * K + j.val = j.val + K * t.val
  rw [Nat.add_comm, Nat.mul_comm]

/-- every column is a column of some tile -/
theorem exists_tileIx (T K : ℕ) (i : Fin (T * K)) : ∃ (t : Fin T) (j : Fin K), i = tileIx T K t j := by
  obtain ⟨p, rfl⟩ := finProdFinEquiv.surjective i
  exact ⟨p.1, p.2, (tileIx_eq T K p.1 p.2).symm⟩

theorem psum_all (T K : ℕ) (f : Fin (T * K) → ℝ) : psum T K T f = ∑ i : Fin (T * K), f i := by
  unfold psum
  have h1 : ∀ t : Fin T, (∑ j : Fin K, if t.val < T then f (tileIx T K t j) else 0)
      = ∑ j : Fin K, f (tileIx T K t j) := fun t => Finset.sum_congr rfl (fun j _ => if_pos t.isLt)
  rw [Finset.sum_congr rfl (fun t _ => h1 t), ← Fintype.sum_prod_type' (fun t j => f (tileIx T K t j))]
  exact Fintype.sum_equiv finProdFinEquiv _ _ (fun p => by rw [tileIx_eq])

/-! ### The running maximum -/

/-- the running maximum after n tiles is -∞ or real, bounds the scores read so far and is at most the row's -/
theorem run_fst (T K : ℕ) (s v : Fin (T * K) → EReal) (hs : ∀ i, s i = ⊥ ∨ ∃ r : ℝ, s i = (r : EReal)) :
    ∀ n, n ≤ T →
      ((run T K s v n).1 = ⊥ ∨ ∃ r : ℝ, (run T K s v n).1 = (r : EReal))
      ∧ (∀ (t : Fin T) (j : Fin K), t.val < n → s (tileIx T K t j) ≤ (run T K s v n).1)
      ∧ (run T K s v n).1 ≤ fmax s := by
  intro n
  induction n with
  | zero => exact fun _ => ⟨Or.inl rfl, fun t _ h => absurd h (Nat.not_lt_zero _), bot_le⟩
  | succ n ih =>
    intro hn
    have h : n < T := hn
    obtain ⟨ih1, ih2, ih3⟩ := ih (Nat.le_of_lt h)
    rw [run_succ_of_lt T K s v n h]
    show (max (run T K s v n).1 (fmax fun j => s (tileIx T K ⟨n, h⟩ j)) = ⊥
        ∨ ∃ r : ℝ, max (run T K s v n).1 (fmax fun j => s (tileIx T K ⟨n, h⟩ j)) = (r : EReal))
      ∧ (∀ (t : Fin T) (j : Fin K), t.val < n + 1 →
          s (tileIx T K t j) ≤ max (run T K s v n).1 (fmax fun j => s (tileIx T K ⟨n, h⟩ j)))
      ∧ max (run T K s v n).1 (fmax fun j => s (tileIx T K ⟨n, h⟩ j)) ≤ fmax s
    refine ⟨?_, ?_, ?_⟩
    · rcases max_choice (run T K s v n).1 (fmax fun j => s (tileIx T K ⟨n, h⟩ j)) with e | e
      · rw [e]; exact ih1
      · rw [e]; exact fmax_bot_or_coe _ (fun j => hs _)
    · intro t j ht
      by_cases h1 : t.val < n
      · exact (ih2 t j h1).trans (le_max_left _ _)
      · have h2 : t = ⟨n, h⟩ := Fin.ext (by
          have : t.val = n := by omega
          exact this)
        subst h2
        exact (le_fmax (fun j => s (tileIx T K ⟨n, h⟩ j)) j).trans (le_max_right _ _)
    · exact max_le ih3 (fmax_le _ _ (fun j => le_fmax s _))

/-- once a tile has been read the running maximum is real, the first score being real -/
theorem run_fst_coe (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (n : ℕ) (hn : 1 ≤ n) : ∃ r : ℝ, (run T K s v n).1 = (r : EReal) := by
  have main : ∀ n, 1 ≤ n → n ≤ T → ∃ r : ℝ, (run T K s v n).1 = (r : EReal) := by
    intro n hn hnT
    obtain ⟨h1, h2, _⟩ := run_fst T K s v hs n hnT
    obtain ⟨r0, hr0⟩ := h0
    have hix : tileIx T K ⟨0, hT⟩ ⟨0, hK⟩ = ⟨0, Nat.mul_pos hT hK⟩ := Fin.ext (by
      show 0 * K + 0 = 0
      rw [Nat.zero_mul])
    have hle := h2 ⟨0, hT⟩ ⟨0, hK⟩ hn
    rw [hix, hr0] at hle
    exact coe_of_coe_le h1 hle
  rcases Nat.lt_or_ge n T with h | h
  · exact main n hn (Nat.le_of_lt h)
  · rw [run_of_ge T K s v n h]; exact main T hT le_rfl

/-! ### The state after n tiles -/

/-- after n ≥ 1 tiles: the real maximum m of the scores read so far, and over them the sums of exp (sᵢ - m)
    and of exp (sᵢ - m) · vᵢ -/
theorem run_eq (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (vr : Fin (T * K) → ℝ) (hv : ∀ i, v i = (vr i : EReal)) (n : ℕ) (hn : 1 ≤ n) (hnT : n ≤ T) :
    ∃ m : ℝ, run T K s v n
      = ((m : EReal), ((psum T K n (fun i => ew (s i) m) : ℝ) : EReal),
          ((psum T K n (fun i => ew (s i) m * vr i) : ℝ) : EReal)) := by
  induction n, hn using Nat.le_induction with
  | base =>
    obtain ⟨m, hm⟩ := run_fst_coe T K hT hK s v hs h0 1 le_rfl
    refine ⟨m, ?_⟩
    rw [run_succ_of_lt T K s v 0 hT] at hm ⊢
    rw [run_zero] at hm ⊢
    have hmax : max (⊥ : EReal) (fmax fun j => s (tileIx T K ⟨0, hT⟩ j)) = (m : EReal) := hm
    have e := step_coe ⊥ (Or.inl rfl) 0 0 (fun j => s (tileIx T K ⟨0, hT⟩ j)) (fun j => v (tileIx T K ⟨0, hT⟩ j))
      (fun j => hs _) (fun j => vr (tileIx T K ⟨0, hT⟩ j)) (fun j => hv _) m hmax
    rw [EReal.coe_zero] at e
    rw [e, psum_succ T K 0 hT, psum_succ T K 0 hT, psum_zero, psum_zero, mul_zero]
  | succ n hn ih =>
    have h : n < T := hnT
    obtain ⟨m, hrun⟩ := ih (Nat.le_of_lt h)
    obtain ⟨m', hm'⟩ := run_fst_coe T K hT hK s v hs h0 (n + 1) (Nat.le_succ_of_le hn)
    refine ⟨m', ?_⟩
    rw [run_succ_of_lt T K s v n h] at hm' ⊢
    rw [hrun] at hm' ⊢
    have hmax : max (m : EReal) (fmax fun j => s (tileIx T K ⟨n, h⟩ j)) = (m' : EReal) := hm'
    rw [step_coe (m : EReal) (Or.inr ⟨m, rfl⟩) _ _ (fun j => s (tileIx T K ⟨n, h⟩ j))
      (fun j => v (tileIx T K ⟨n, h⟩ j)) (fun j => hs _) (fun j => vr (tileIx T K ⟨n, h⟩ j)) (fun j => hv _) m' hmax,
      psum_succ T K n h, psum_succ T K n h, mul_psum, mul_psum]
    have e1 : (fun i => ew (m : EReal) m' * ew (s i) m) = fun i => ew (s i) m' :=
      funext fun i => ew_rescale (s i) m m'
    have e2 : (fun i => ew (m : EReal) m' * (ew (s i) m * vr i)) = fun i => ew (s i) m' * vr i :=
      funext fun i => by rw [← mul_assoc, ew_rescale]
    rw [e1, e2]

/-! ### The theorems -/

/-- the online recurrence over all the tiles is the softmax of the row, taken with its maximum subtracted,
    against the values -/
theorem online_softmax (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (hv : ∀ i, ∃ r : ℝ, v i = (r : EReal)) :
    Ideal.div (run T K s v T).2.2 (run T K s v T).2.1
      = ∑ i : Fin (T * K), Ideal.div (Ideal.exp (s i - max ⊥ (fmax s)))
          (0 + ∑ i' : Fin (T * K), Ideal.exp (s i' - max ⊥ (fmax s))) * v i := by
  choose vr hvr using hv
  obtain ⟨m, hrun⟩ := run_eq T K hT hK s v hs h0 vr hvr T hT le_rfl
  obtain ⟨_, hb, hle⟩ := run_fst T K s v hs T le_rfl
  rw [hrun] at hb hle
  -- the running maximum at the end is the row's
  have hM : fmax s = (m : EReal) := by
    refine le_antisymm (fmax_le _ _ (fun i => ?_)) hle
    obtain ⟨t, j, rfl⟩ := exists_tileIx T K i
    exact hb t j t.isLt
  rw [hrun, max_bot_left, hM]
  show Ideal.div ((psum T K T (fun i => ew (s i) m * vr i) : ℝ) : EReal) ((psum T K T (fun i => ew (s i) m) : ℝ) : EReal)
    = _
  rw [psum_all, psum_all]
  -- the denominator is a positive real
  have hL : 0 < ∑ i : Fin (T * K), ew (s i) m := by
    refine Finset.sum_pos' (fun i _ => ew_nonneg _ _) ⟨⟨0, Nat.mul_pos hT hK⟩, Finset.mem_univ _, ?_⟩
    obtain ⟨r0, hr0⟩ := h0
    rw [hr0]; exact ew_coe_pos r0 m
  have hden : (0 : EReal) + ∑ i' : Fin (T * K), Ideal.exp (s i' - (m : EReal))
      = ((∑ i : Fin (T * K), ew (s i) m : ℝ) : EReal) := by
    rw [zero_add, coe_sum]
    exact Finset.sum_congr rfl (fun i _ => exp_sub_coe (s i) (hs i) m)
  rw [hden, Ideal.div_coe hL.ne', ← EReal.coe_mul]
  have hterm : ∀ i : Fin (T * K),
      Ideal.div (Ideal.exp (s i - (m : EReal))) ((∑ i : Fin (T * K), ew (s i) m : ℝ) : EReal) * v i
        = ((ew (s i) m * (1 / ∑ i : Fin (T * K), ew (s i) m) * vr i : ℝ) : EReal) := by
    intro i
    rw [Ideal.div_coe hL.ne', exp_sub_coe (s i) (hs i) m, hvr i, ← EReal.coe_mul, ← EReal.coe_mul]
  rw [Finset.sum_congr rfl (fun i _ => hterm i), ← coe_sum, Finset.sum_mul]
  refine congrArg _ (Finset.sum_congr rfl (fun i _ => ?_))
  ring

/-- tiles from n on entirely -∞ change nothing once one tile has been seen -/
theorem run_masked_tail (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (n : ℕ) (hn : 1 ≤ n) (hmask : ∀ (t : Fin T) (j : Fin K), n ≤ t.val → s (tileIx T K t j) = ⊥) :
    run T K s v T = run T K s v n := by
  rcases Nat.lt_or_ge n T with hlt | hge
  · have main : ∀ k, n ≤ k → k ≤ T → run T K s v k = run T K s v n := by
      intro k hk
      induction k, hk using Nat.le_induction with
      | base => exact fun _ => rfl
      | succ k hk ih =>
        intro hkT
        have h : k < T := hkT
        have hbot : (fun j => s (tileIx T K ⟨k, h⟩ j)) = fun _ : Fin K => (⊥ : EReal) :=
          funext fun j => hmask ⟨k, h⟩ j hk
        rw [run_succ_of_lt T K s v k h, hbot,
          step_masked _ (run_fst_coe T K hT hK s v hs h0 k (le_trans hn hk)), ih (Nat.le_of_lt h)]
    exact main T (Nat.le_of_lt hlt) le_rfl
  · exact (run_of_ge T K s v n hge).symm

end Cert.Softmax
-- ==== Proof.AtIndex.lean ====
/-
  The kernel's arithmetic read at one index, on the extended reals.

  Row r of the block of queries, scaled once by the literal 1/8, is set against the key rows of a tile: the tile's
  score at (r, j) is ∑_c (q(r,c)·⅛)·k(j,c). One tile's visit then updates, for row r and output column d,
  the triple (running maximum, denominator, numerator) exactly as the online-softmax step does with the tile's
  scores and the tile's values in column d. So after n tiles the triple at (r, d) is the n-step run of that
  recurrence over the row's scores and column d of the values, tile k holding rows 1024·k … 1024·k + 1023.
-/
import proofs.«148156_j23270132809797_2_alg».proof.Proof.BodyOut
import proofs.«148156_j23270132809797_2_alg».proof.Proof.LibMatrixAtIndex
import proofs.«148156_j23270132809797_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AtIndex

open Cert.KernelIdeal Cert.KernelIdeal.Gen Cert.KernelIdeal.Body Cert.KernelIdeal.Pay
open Idealize.ShloMosaic Idealize.ShloMosaic.ValueIdx Cert.Attn Cert.Softmax
open scoped BigOperators

/-! ## A matrix product into a zero accumulator, rows against columns, at any operand formats -/

theorem matmul_rowcol {m k n : Nat} {φ₁ φ₂ : FTy} (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ φ₁) (B : FVec Ideal ⟨2, ![k, n]⟩ φ₂) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-! ## The payloads at an index -/

section Pay
variable (qb : FVec Ideal S1024x64 .bf16) (kt vt : Vec Ideal S1024x64 .f32)
  (m m' l : Vec Ideal S1024x1 .f32) (acc : Vec Ideal S1024x64 .f32)

/-- the initial fill of the running maximum is −∞ -/
theorem pay1_apply (i : S1024x1.Idx) : k0_pay1 (F := Ideal) i = ⊥ := by
  show shapeCast S1024x1 (broadcast S1024x1 (Scalar.ofBits (F := Ideal) .f32 0xFF800000#32)) shapeCasts_S1024x1_S1024x1 i = ⊥
  rw [shapeCast_self]
  exact ofBits_negInf_f32

/-- the initial fill of the denominator is 0 -/
theorem pay2_apply (i : S1024x1.Idx) : k0_pay2 (F := Ideal) i = 0 := by
  show shapeCast S1024x1 (broadcast S1024x1 (Scalar.ofBits (F := Ideal) .f32 0x00000000#32)) shapeCasts_S1024x1_S1024x1 i = 0
  rw [shapeCast_self]
  exact Ideal.ofBits_zero_f32

/-- the initial fill of the numerator is 0 -/
theorem pay3_apply (i : S1024x64.Idx) : k0_pay3 (F := Ideal) i = 0 := by
  show shapeCast S1024x64 (broadcast S1024x64 (Scalar.ofBits (F := Ideal) .f32 0x00000000#32)) shapeCasts_S1024x64_S1024x64 i = 0
  rw [shapeCast_self]
  exact Ideal.ofBits_zero_f32

/-- the queries are scaled by the literal once -/
theorem pay4_apply (x0 : Vec Ideal S1024x64 .f32) (i : S1024x64.Idx) :
    k0_pay4 x0 i = x0 i * Ideal.ofBits .f32 0x3E000000#32 := rfl

/-- the new running maximum is stored as computed -/
theorem pay5_eq (v : FVec Ideal S1024x1 .f32) : k0_pay5 v = v := by
  show shapeCast S1024x1 v shapeCasts_S1024x1_S1024x1 = v
  rw [shapeCast_self]

/-- a tile's score at (r, j): scaled query row r against key row j of the tile -/
theorem pay7_apply (r j : Fin 1024) :
    k0_pay7 qb kt (ix2 r j) = ∑ c : Fin 64, qb (ix2 r c) * kt (ix2 j c) := by
  show matmul dot_S1024x64_S64x1024_S1024x1024_1_0_0_1_n_n none qb
      (transpose S64x1024 [1, 0] (truncf (F := Ideal) .bf16 kt bitsLt_bf16_f32) transposes_S1024x64_p1_0_S64x1024)
      (constant (F := Ideal) S1024x1024 .f32 0x00000000#32) (ix2 r j) = _
  rw [matmul_rowcol _ rfl rfl rfl rfl rfl rfl rfl rfl]
  refine Finset.sum_congr rfl fun c _ => congrArg (qb (ix2 r c) * ·) ?_
  exact (transpose_apply [1, 0] (truncf (F := Ideal) .bf16 kt bitsLt_bf16_f32) transposes_S1024x64_p1_0_S64x1024 (ix2 c j) (ix2 j c)
    (fun b => match b with | ⟨0, _⟩ => rfl | ⟨1, _⟩ => rfl)).trans rfl

/-- the maximum of a finite family from the word of −∞ is its maximum from −∞ -/
theorem fold_max_negInf {n : ℕ} (f : Fin n → EReal) :
    (Finset.univ : Finset (Fin n)).fold max (Ideal.ofBits .f32 0xFF800000#32) f = fmax f := by
  rw [ofBits_negInf_f32]; rfl

/-- the new running maximum of row r: the old one against the tile's largest score -/
theorem pay8_apply (r : Fin 1024) (u : Fin 1) :
    k0_pay8 qb kt m (ix2 r u) = max (m (ix2 r u)) (fmax fun j : Fin 1024 => k0_pay7 qb kt (ix2 r j)) := by
  unfold k0_pay8
  dsimp only
  rw [maximumf_apply, shapeCast_col_apply]
  refine congrArg (max (m (ix2 r u))) ?_
  exact (rowMax_apply (k0_pay7 qb kt) _ reduces_S1024x1024_S1024 _ _ r).trans (fold_max_negInf _)

/-- the factor that moves the old sums to the new maximum -/
theorem pay9_apply (r : Fin 1024) (u : Fin 1) :
    k0_pay9 qb kt m m' (ix2 r u) = Ideal.exp (m' (ix2 r u) - k0_pay8 qb kt m (ix2 r u)) := rfl

/-- a tile's weight at (r, j) -/
theorem pay10_apply (r j : Fin 1024) :
    k0_pay10 qb kt m (ix2 r j) = Ideal.exp (k0_pay7 qb kt (ix2 r j) - k0_pay8 qb kt m (ix2 r (0 : Fin 1))) := by
  show Ideal.exp (k0_pay7 qb kt (ix2 r j)
      - broadcastTo S1024x1024 (k0_pay8 qb kt m) broadcasts_S1024x1_S1024x1024 (ix2 r j)) = _
  rw [broadcastTo_col_apply]

/-- the new denominator of row r -/
theorem pay11_apply (r : Fin 1024) (u : Fin 1) :
    k0_pay11 qb kt m m' l (ix2 r u)
      = k0_pay9 qb kt m m' (ix2 r u) * l (ix2 r u) + ∑ j : Fin 1024, k0_pay10 qb kt m (ix2 r j) := by
  show shapeCast S1024x1 (addf (mulf (k0_pay9 qb kt m m') l) (shapeCast S1024x1
      (multiReduction .add [1] S1024 (k0_pay10 qb kt m) 0x00000000#32 reduces_S1024x1024_S1024 (.inl rfl) rfl)
      shapeCasts_S1024_S1024x1)) shapeCasts_S1024x1_S1024x1 (ix2 r u) = _
  rw [shapeCast_self]
  show k0_pay9 qb kt m m' (ix2 r u) * l (ix2 r u) + shapeCast S1024x1
      (multiReduction .add [1] S1024 (k0_pay10 qb kt m) 0x00000000#32 reduces_S1024x1024_S1024 (.inl rfl) rfl)
      shapeCasts_S1024_S1024x1 (ix2 r u) = _
  rw [shapeCast_col_apply]
  exact congrArg (k0_pay9 qb kt m m' (ix2 r u) * l (ix2 r u) + ·)
    (rowSum_apply (k0_pay10 qb kt m) _ reduces_S1024x1024_S1024 _ _ r)

/-- the new numerator at (r, d) -/
theorem pay12_apply (r : Fin 1024) (d : Fin 64) :
    k0_pay12 qb kt vt m m' acc (ix2 r d)
      = k0_pay9 qb kt m m' (ix2 r (0 : Fin 1)) * acc (ix2 r d)
        + ∑ j : Fin 1024, k0_pay10 qb kt m (ix2 r j) * vt (ix2 j d) := by
  show shapeCast S1024x64 (addf (mulf (broadcastTo S1024x64 (k0_pay9 qb kt m m') broadcasts_S1024x1_S1024x64) acc)
      (matmul dot_S1024x1024_S1024x64_S1024x64_1_0_0_1_n_n none (truncf (F := Ideal) .bf16 (k0_pay10 qb kt m) bitsLt_bf16_f32)
        (truncf (F := Ideal) .bf16 vt bitsLt_bf16_f32) (constant (F := Ideal) S1024x64 .f32 0x00000000#32)))
      shapeCasts_S1024x64_S1024x64 (ix2 r d) = _
  rw [shapeCast_self]
  show broadcastTo S1024x64 (k0_pay9 qb kt m m') broadcasts_S1024x1_S1024x64 (ix2 r d) * acc (ix2 r d)
      + matmul dot_S1024x1024_S1024x64_S1024x64_1_0_0_1_n_n none (truncf (F := Ideal) .bf16 (k0_pay10 qb kt m) bitsLt_bf16_f32)
        (truncf (F := Ideal) .bf16 vt bitsLt_bf16_f32) (constant (F := Ideal) S1024x64 .f32 0x00000000#32) (ix2 r d) = _
  rw [broadcastTo_col_apply, matmul_rowcol _ rfl rfl rfl rfl rfl rfl rfl rfl]
  rfl

/-- the output: numerator over the row's denominator -/
theorem pay6_apply (r : Fin 1024) (d : Fin 64) :
    k0_pay6 acc l (ix2 r d) = Ideal.div (acc (ix2 r d)) (l (ix2 r (0 : Fin 1))) := by
  show Ideal.div (acc (ix2 r d)) (broadcastTo S1024x64 l broadcasts_S1024x1_S1024x64 (ix2 r d)) = _
  rw [broadcastTo_col_apply]

end Pay

/-! ## One tile's update at a row is the online-softmax step -/

theorem tileStep_apply (qb : FVec Ideal S1024x64 .bf16) (kt vt : Vec Ideal S1024x64 .f32) (st : St Ideal)
    (r : Fin 1024) (d : Fin 64) :
    ((tileStep qb kt vt st).1 (ix2 r (0 : Fin 1)), (tileStep qb kt vt st).2.1 (ix2 r (0 : Fin 1)),
        (tileStep qb kt vt st).2.2 (ix2 r d))
      = step (st.1 (ix2 r (0 : Fin 1)), st.2.1 (ix2 r (0 : Fin 1)), st.2.2 (ix2 r d))
          (fun j : Fin 1024 => k0_pay7 qb kt (ix2 r j)) (fun j : Fin 1024 => vt (ix2 j d)) := by
  unfold tileStep step
  refine Prod.ext ?_ (Prod.ext ?_ ?_)
  · show k0_pay5 (k0_pay8 qb kt st.1) (ix2 r (0 : Fin 1)) = _
    rw [pay5_eq, pay8_apply]
  · show k0_pay11 qb kt st.1 st.1 st.2.1 (ix2 r (0 : Fin 1)) = _
    rw [pay11_apply, pay9_apply, pay8_apply]
    refine congrArg (_ + ·) (Finset.sum_congr rfl fun j _ => ?_)
    rw [pay10_apply, pay8_apply]
  · show k0_pay12 qb kt vt st.1 st.1 st.2.2 (ix2 r d) = _
    rw [pay12_apply, pay9_apply, pay8_apply]
    refine congrArg (_ + ·) (Finset.sum_congr rfl fun j _ => ?_)
    rw [pay10_apply, pay8_apply]

end Cert.KernelIdeal.AtIndex

end
-- ==== Proof.RowRun.lean ====
/-
  The running blocks after n tiles, read at row r and output column d, are the n-step online-softmax run over the
  row's scores against all the keys and column d of all the values.
-/
import proofs.«148156_j23270132809797_2_alg».proof.Proof.AtIndex

set_option maxRecDepth 16384

noncomputable section

namespace Cert.KernelIdeal.AtIndex

open Cert.KernelIdeal Cert.KernelIdeal.Gen Cert.KernelIdeal.Body Cert.KernelIdeal.Pay
open Idealize.ShloMosaic Idealize.ShloMosaic.ValueIdx Cert.Attn Cert.Softmax
open scoped BigOperators

/-- the loop visits at most eight tiles -/
theorem trips_le : k0_t1_loop.trips ≤ 8 := k0_t1_abs.2.1

/-- a column of the T·1024 columns read in tiles, as a row number of the key and value arrays -/
def rowOf (i : Fin (k0_t1_loop.trips * 1024)) : Fin 8192 :=
  ⟨i.val, by have := i.isLt; have := trips_le; omega⟩

/-- row r's scores against every key row: the scaled queries against the keys -/
def sRow (x0 : Vec Ideal S1024x64 .f32) (x1 : Vec Ideal S8192x64 .f32) (r : Fin 1024) :
    Fin (k0_t1_loop.trips * 1024) → EReal :=
  fun i => ∑ c : Fin 64, (x0 (ix2 r c) * Ideal.ofBits .f32 0x3E000000#32) * x1 (ix2 (rowOf i) c)

/-- column d of the values -/
def vCol (x2 : Vec Ideal S8192x64 .f32) (d : Fin 64) : Fin (k0_t1_loop.trips * 1024) → EReal :=
  fun i => x2 (ix2 (rowOf i) d)

/-- Row j of tile k, column c, of a key or value array read through the tile's rectangle. -/
theorem ld_tile (x : Vec Ideal S8192x64 .f32) (k : Fin k0_t1_loop.trips) (j : Fin 1024) (c : Fin 64) :
    View.ld x (rK k) (ix2 j c) = x (ix2 (rowOf (tileIx k0_t1_loop.trips 1024 k j)) c) := by
  show x ((rK k).idx (ix2 j c)) = _
  refine congrArg x (funext fun a => Fin.ext ?_)
  match a with
  | ⟨0, _⟩ =>
    show k0_off1 k 0 + 1 * j.val = k.val * 1024 + j.val
    rw [k0_off1_eq]
    show 1024 * k.val + 1 * j.val = _
    omega
  | ⟨1, _⟩ =>
    show k0_off1 k 1 + 1 * c.val = c.val
    rw [k0_off1_eq]
    show 0 + 1 * c.val = _
    omega

theorem stateAt_apply (x0 : Vec Ideal S1024x64 .f32) (x1 x2 : Vec Ideal S8192x64 .f32) (r : Fin 1024) (d : Fin 64)
    (n : ℕ) (hn : n ≤ k0_t1_loop.trips) :
    ((stateAt (k0_pay4 x0) (fun k => View.ld x1 (rK k)) (fun k => View.ld x2 (rK k)) n).1 (ix2 r (0 : Fin 1)),
        (stateAt (k0_pay4 x0) (fun k => View.ld x1 (rK k)) (fun k => View.ld x2 (rK k)) n).2.1 (ix2 r (0 : Fin 1)),
        (stateAt (k0_pay4 x0) (fun k => View.ld x1 (rK k)) (fun k => View.ld x2 (rK k)) n).2.2 (ix2 r d))
      = run k0_t1_loop.trips 1024 (sRow x0 x1 r) (vCol x2 d) n := by
  induction n with
  | zero =>
    rw [stateAt_zero, run_zero]
    exact Prod.ext (pay1_apply (ix2 r (0 : Fin 1))) (Prod.ext (pay2_apply (ix2 r (0 : Fin 1))) (pay3_apply (ix2 r d)))
  | succ n ih =>
    have h : n < k0_t1_loop.trips := hn
    rw [stateAt_succ' _ _ _ n h, run_succ_of_lt _ _ _ _ n h, tileStep_apply, ih (Nat.le_of_lt h)]
    congr 1
    · funext j
      rw [pay7_apply]
      exact Finset.sum_congr rfl fun c _ => by rw [pay4_apply, ld_tile]
    · funext j
      exact ld_tile x2 ⟨n, h⟩ j d

end Cert.KernelIdeal.AtIndex

end
-- ==== Proof.SoftmaxSums.lean ====
/-
  The sums the two programs meet in, on the extended reals.

  For a row of T·K real scores s and real values v, the online recurrence (running maximum, denominator, numerator
  from (−∞, 0, 0), one tile of K columns at a time) ends with the denominator ∑ᵢ exp (sᵢ − M) and the numerator
  ∑ᵢ exp (sᵢ − M)·vᵢ, M the maximum of the row. A dot product of real rows is real, and scaling one factor of every
  product by a real s scales the whole dot product by s (distributivity, which holds on the reals and fails at the
  infinities: this is where the inputs' finiteness is used). The scale the kernel and the reference both use is the
  exact dyadic 1/8.
-/
import proofs.«148156_j23270132809797_2_alg».proof.Proof.LibOnlineSoftmax
import Idealize.ShloMosaic.PureOps.Ideal.Laws

noncomputable section

namespace Cert.Attention

open Cert.Attn Cert.Softmax Idealize.ShloMosaic
open scoped BigOperators

/-- The word `0x3E000000` is the real number 1/8. -/
theorem ofBits_eighth : Ideal.ofBits .f32 0x3E000000#32 = (((1 : ℝ) / 8 : ℝ) : EReal) := by
  simp [Ideal.ofBits, Ideal.ieee, -EReal.coe_mul]; norm_num

/-- a finite sum of real numbers, read on the extended reals -/
theorem coe_sum' {ι : Type*} (s : Finset ι) (f : ι → ℝ) : ((∑ i ∈ s, f i : ℝ) : EReal) = ∑ i ∈ s, (f i : EReal) :=
  Cert.Softmax.coe_sum s f

/-- A dot product of real rows is the real dot product. -/
theorem dot_coe {n : ℕ} (a b : Fin n → EReal) (ar br : Fin n → ℝ) (ha : ∀ c, a c = (ar c : EReal))
    (hb : ∀ c, b c = (br c : EReal)) : ∑ c, a c * b c = ((∑ c, ar c * br c : ℝ) : EReal) := by
  rw [coe_sum']
  exact Finset.sum_congr rfl fun c _ => by rw [ha c, hb c, EReal.coe_mul]

/-- Scaling the left factor of every product by a real `s` scales the dot product of real rows by `s`. -/
theorem dot_scale {n : ℕ} (a b : Fin n → EReal) (ar br : Fin n → ℝ) (ha : ∀ c, a c = (ar c : EReal))
    (hb : ∀ c, b c = (br c : EReal)) (s : ℝ) :
    ∑ c, (a c * (s : EReal)) * b c = (∑ c, a c * b c) * (s : EReal) := by
  rw [dot_coe a b ar br ha hb, ← EReal.coe_mul, Finset.sum_mul, coe_sum']
  refine Finset.sum_congr rfl fun c _ => ?_
  rw [ha c, hb c, ← EReal.coe_mul, ← EReal.coe_mul]
  exact congrArg _ (by ring)

section Final
variable (T K : ℕ) (hT : 0 < T) (hK : 0 < K) (s v : Fin (T * K) → EReal)
  (hs : ∀ i, ∃ r : ℝ, s i = (r : EReal)) (hv : ∀ i, ∃ r : ℝ, v i = (r : EReal))

include hT hK hs hv

/-- After all the tiles: the running maximum is the row's, and the denominator and the numerator are the one-pass
    sums taken against it. -/
theorem run_final :
    (run T K s v T).2.1 = ∑ i : Fin (T * K), Ideal.exp (s i - fmax s)
    ∧ (run T K s v T).2.2 = ∑ i : Fin (T * K), Ideal.exp (s i - fmax s) * v i := by
  have hs' : ∀ i, s i = ⊥ ∨ ∃ r : ℝ, s i = (r : EReal) := fun i => Or.inr (hs i)
  have h0 : ∃ r : ℝ, s ⟨0, Nat.mul_pos hT hK⟩ = (r : EReal) := hs _
  choose vr hvr using hv
  obtain ⟨m, hrun⟩ := run_eq T K hT hK s v hs' h0 vr hvr T hT le_rfl
  obtain ⟨_, hb, hle⟩ := run_fst T K s v hs' T le_rfl
  rw [hrun] at hb hle
  have hM : fmax s = (m : EReal) := by
    refine le_antisymm (fmax_le _ _ (fun i => ?_)) hle
    obtain ⟨t, j, rfl⟩ := exists_tileIx T K i
    exact hb t j t.isLt
  rw [hrun, hM]
  refine ⟨?_, ?_⟩
  · show ((psum T K T (fun i => ew (s i) m) : ℝ) : EReal) = _
    rw [psum_all, coe_sum']
    exact Finset.sum_congr rfl fun i _ => (exp_sub_coe (s i) (hs' i) m).symm
  · show ((psum T K T (fun i => ew (s i) m * vr i) : ℝ) : EReal) = _
    rw [psum_all, coe_sum']
    exact Finset.sum_congr rfl fun i _ => by rw [EReal.coe_mul, exp_sub_coe (s i) (hs' i) m, hvr i]

end Final

end Cert.Attention

end
-- ==== Proof.Spec.lean ====
/-
  What both programs compute, as functions of the three argument arrays (8192 rows of 64 entries each).

  For query row R and key row n the score is (∑_c q(R,c)·k(n,c))·⅛. With M(R) the largest score of row R,
  the weights are exp (score(R,n) − M(R)); the second result is their sum over n, and the first result at (R, d) is
  the weighted sum ∑_n weight(R,n)·v(n,d) divided by that sum.
-/
import proofs.«148156_j23270132809797_2_alg».proof.Proof.LibFmax
import Idealize.ShloMosaic.PureOps.Ideal
import Idealize.ShloMosaic.Lib.ValueIdx

noncomputable section

namespace Cert.Attention

open Cert.Attn Idealize.ShloMosaic Idealize.ShloMosaic.ValueIdx
open scoped BigOperators

/-- an array of 8192 rows of 64 extended reals -/
abbrev Arr := (⟨2, ![8192, 64]⟩ : Shape).Idx → EReal

/-- the score of query row R against key row n, scaled by the literal 1/8 after the sum -/
def score (q k : Arr) (R n : Fin 8192) : EReal :=
  (∑ c : Fin 64, q (ix2 R c) * k (ix2 n c)) * Ideal.ofBits .f32 0x3E000000#32

/-- the weight of key row n for query row R: the score against the row's largest score -/
def weight (q k : Arr) (R n : Fin 8192) : EReal := Ideal.exp (score q k R n - fmax (score q k R))

/-- the sum of row R's weights -/
def den (q k : Arr) (R : Fin 8192) : EReal := ∑ n : Fin 8192, weight q k R n

/-- the weighted sum of column d of the values -/
def num (q k v : Arr) (R : Fin 8192) (d : Fin 64) : EReal := ∑ n : Fin 8192, weight q k R n * v (ix2 n d)

/-- the first result: weighted sums over the row's sum of weights -/
def outO (q k v : Arr) : (⟨2, ![8192, 64]⟩ : Shape).Idx → EReal := fun i => Ideal.div (num q k v (i 0) (i 1)) (den q k (i 0))

/-- the second result: each row's sum of weights -/
def outL (q k : Arr) : (⟨2, ![8192, 1]⟩ : Shape).Idx → EReal := fun i => den q k (i 0)

end Cert.Attention

end
-- ==== Proof.PointValue.lean ====
/-
  One grid point against the specification.

  Grid point t holds query rows 1024·t … 1024·t + 1023 and sees all the key and value rows, eight tiles of 1024.
  For real-valued arrays, the scaled-query score of block row r against key row n is the specification's score
  of array row 1024·t + r against n (the scale moves out of the sum: distributivity on the reals), the tiles'
  columns are exactly the 8192 key rows, and so after the last tile the denominator at row r and the numerator at
  (r, d) are the specification's sums at that array row.
-/
import proofs.«148156_j23270132809797_2_alg».proof.Proof.RowRun
import proofs.«148156_j23270132809797_2_alg».proof.Proof.SoftmaxSums
import proofs.«148156_j23270132809797_2_alg».proof.Proof.Spec

set_option maxRecDepth 16384

noncomputable section

namespace Cert.KernelIdeal.AtIndex

open Cert.KernelIdeal Cert.KernelIdeal.Gen Cert.KernelIdeal.Body
open Idealize.ShloMosaic Idealize.ShloMosaic.ValueIdx Cert.Attn Cert.Softmax Cert.Attention
open scoped BigOperators

/-- the loop visits exactly eight tiles -/
theorem trips_eq : k0_t1_loop.trips = 8 := by decide +kernel

/-! ## The tiles' columns are the 8192 key rows -/

theorem rowOf_injective : Function.Injective rowOf := fun a b h => Fin.ext (congrArg Fin.val h)

theorem rowOf_surjective : Function.Surjective rowOf := fun n =>
  ⟨⟨n.val, by have := n.isLt; rw [trips_eq]; omega⟩, Fin.ext rfl⟩

/-- the columns read in tiles, numbered as the rows of the key and value arrays -/
def rowEquiv : Fin (k0_t1_loop.trips * 1024) ≃ Fin 8192 := Equiv.ofBijective rowOf ⟨rowOf_injective, rowOf_surjective⟩

theorem sum_rowOf (f : Fin 8192 → EReal) : ∑ i, f (rowOf i) = ∑ n, f n :=
  Equiv.sum_comp rowEquiv f

theorem fmax_rowOf (g : Fin 8192 → EReal) : fmax (fun i => g (rowOf i)) = fmax g :=
  le_antisymm (fmax_le _ _ fun i => le_fmax g (rowOf i))
    (fmax_le _ _ fun n => by
      obtain ⟨i, rfl⟩ := rowOf_surjective n
      exact le_fmax (fun i => g (rowOf i)) i)

/-! ## One grid point -/

/-- block row r of grid point t, as a row of the arrays -/
def rowAt (t : Fin 8) (r : Fin 1024) : Fin 8192 :=
  ⟨1024 * t.val + r.val, by have := t.isLt; have := r.isLt; omega⟩

section Point
variable (t : Fin 8) (x0 : Vec Ideal S1024x64 .f32) (qa ka va : Arr)
  (hx0 : ∀ (r : Fin 1024) (c : Fin 64), x0 (ix2 r c) = qa (ix2 (rowAt t r) c))
  (hq : ∀ i, ∃ a : ℝ, qa i = (a : EReal)) (hk : ∀ i, ∃ a : ℝ, ka i = (a : EReal))
  (hv : ∀ i, ∃ a : ℝ, va i = (a : EReal))

include hq hk in
/-- a score of real arrays is a real number -/
theorem score_real (R n : Fin 8192) : ∃ a : ℝ, score qa ka R n = (a : EReal) := by
  choose qr hqr using hq
  choose kr hkr using hk
  unfold score
  rw [dot_coe (fun c => qa (ix2 R c)) (fun c => ka (ix2 n c)) (fun c => qr _) (fun c => kr _) (fun c => hqr _)
    (fun c => hkr _), ofBits_eighth, ← EReal.coe_mul]
  exact ⟨_, rfl⟩

include hx0 hq hk in
/-- the block's scaled-query scores are the specification's scores of the point's array rows -/
theorem sRow_eq (r : Fin 1024) (i : Fin (k0_t1_loop.trips * 1024)) :
    sRow x0 ka r i = score qa ka (rowAt t r) (rowOf i) := by
  choose qr hqr using hq
  choose kr hkr using hk
  unfold sRow score
  rw [ofBits_eighth]
  rw [Finset.sum_congr rfl fun c _ => by rw [hx0 r c]]
  exact dot_scale (fun c => qa (ix2 (rowAt t r) c)) (fun c => ka (ix2 (rowOf i) c)) (fun c => qr _) (fun c => kr _)
    (fun c => hqr _) (fun c => hkr _) (1 / 8)

include hx0 hq hk hv in
/-- after the last tile: the denominator and the numerator of block row r are the specification's -/
theorem point_sums (r : Fin 1024) (d : Fin 64) :
    (finalState x0 ka va).2.1 (ix2 r (0 : Fin 1)) = den qa ka (rowAt t r)
    ∧ (finalState x0 ka va).2.2 (ix2 r d) = num qa ka va (rowAt t r) d := by
  have hst := stateAt_apply x0 ka va r d k0_t1_loop.trips le_rfl
  have hT : 0 < k0_t1_loop.trips := by rw [trips_eq]; norm_num
  have hs : ∀ i, ∃ a : ℝ, sRow x0 ka r i = (a : EReal) := fun i => by
    rw [sRow_eq t x0 qa ka hx0 hq hk r i]; exact score_real qa ka hq hk _ _
  have hv' : ∀ i, ∃ a : ℝ, vCol va d i = (a : EReal) := fun i => hv _
  obtain ⟨h1, h2⟩ := run_final k0_t1_loop.trips 1024 hT (by norm_num) (sRow x0 ka r) (vCol va d) hs hv'
  have hsr : sRow x0 ka r = fun i => score qa ka (rowAt t r) (rowOf i) :=
    funext (sRow_eq t x0 qa ka hx0 hq hk r)
  have hfm : fmax (sRow x0 ka r) = fmax (score qa ka (rowAt t r)) := by
    rw [hsr]; exact fmax_rowOf _
  have e1 : (finalState x0 ka va).2.1 (ix2 r (0 : Fin 1))
      = (run k0_t1_loop.trips 1024 (sRow x0 ka r) (vCol va d) k0_t1_loop.trips).2.1 := congrArg (fun p => p.2.1) hst
  have e2 : (finalState x0 ka va).2.2 (ix2 r d)
      = (run k0_t1_loop.trips 1024 (sRow x0 ka r) (vCol va d) k0_t1_loop.trips).2.2 := congrArg (fun p => p.2.2) hst
  refine ⟨?_, ?_⟩
  · rw [e1, h1, hfm, hsr]
    unfold den weight
    exact sum_rowOf (fun n => Ideal.exp (score qa ka (rowAt t r) n - fmax (score qa ka (rowAt t r))))
  · rw [e2, h2, hfm, hsr]
    unfold num weight vCol
    exact sum_rowOf (fun n => Ideal.exp (score qa ka (rowAt t r) n - fmax (score qa ka (rowAt t r))) * va (ix2 n d))

end Point

end Cert.KernelIdeal.AtIndex

end
-- ==== Proof.Whole.lean ====
/-
  From blocks to arrays.

  Grid point t reads query rows 1024·t … 1024·t + 1023 and the whole key and value arrays, and writes back rows
  1024·t … 1024·t + 1023 of both results. For real-valued arguments what it writes back is that block of the
  specification (the point's sums are the specification's, row by row), the eight blocks cover both result arrays,
  and so after the run the two result arrays are the specification's two functions of the arguments.
-/
import proofs.«148156_j23270132809797_2_alg».proof.Proof.Gen.KernelIdeal.Value
import proofs.«148156_j23270132809797_2_alg».proof.Proof.PointValue

set_option maxRecDepth 16384
set_option maxHeartbeats 1600000

noncomputable section

namespace Cert.KernelIdeal.Whole

open Cert.KernelIdeal Cert.KernelIdeal.Gen Cert.KernelIdeal.Value Cert.KernelIdeal.Body Cert.KernelIdeal.AtIndex
open Idealize.ShloMosaic Idealize.ShloMosaic.TcCoe Idealize.ShloMosaic.ValueIdx Idealize.SL.Sem Cert.Attention
open Idealize.ShloMosaic.Pipeline (Dat)

variable (m : (ℓ : Loc nD τ sig) → Buf (Elt Ideal) ℓ) (ρ : Dev nD → PrngReg)

/-- The printed index maps, decided over the eight grid points: the query window and both result windows sit at
    block row t, the key and value windows at the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 ∧ t.val < 8 :=
  (by decide +kernel : ∀ t : Fin grid0.N, _)

/-- a grid point as one of the eight block rows -/
def pt (t : Fin cfg0.N) : Fin 8 := ⟨t.val, (idx_facts t).2.2.2.2.2.2.2.2.2.2⟩

/-- the three arguments as the region finds them -/
abbrev argQ (c : Dev nD) : Arr := m ((c : Thread nD τ).loc main_arg0)
abbrev argK (c : Dev nD) : Arr := m ((c : Thread nD τ).loc main_arg1)
abbrev argV (c : Dev nD) : Arr := m ((c : Thread nD τ).loc main_arg2)

/-! ## The input blocks -/

/-- the query block of point t is rows 1024·t … of the first argument -/
theorem iblk0_apply (c : Dev nD) (t : Fin cfg0.N) (r : Fin 1024) (cc : Fin 64) :
    (iblk m c 0 t : Vec Ideal S1024x64 .f32) (ix2 r cc) = argQ m c (ix2 (rowAt (pt t) r) cc) := by
  obtain ⟨e0, e1, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 1024 + 1 * r.val = 1024 * t.val + r.val; rw [e0]; omega
  | ⟨1, _⟩ => show win0_0.index t (1 : Fin 2) * 64 + 1 * cc.val = cc.val; rw [e1]; omega

/-- the key block of every point is the whole second argument -/
theorem iblk1_eq (c : Dev nD) (t : Fin cfg0.N) : (iblk m c 1 t : Vec Ideal S8192x64 .f32) = argK m c := by
  obtain ⟨-, -, e0, e1, -⟩ := idx_facts t
  funext j
  unfold iblk
  rw [View.read_apply]
  show V m c main_arg1 _ = m ((c : Thread nD τ).loc main_arg1) _
  unfold V
  congr 1
  funext a
  apply Fin.ext
  match a with
  | ⟨0, _⟩ => show win0_1.index t (0 : Fin 2) * 8192 + 1 * (j 0).val = (j 0).val; rw [e0]; omega
  | ⟨1, _⟩ => show win0_1.index t (1 : Fin 2) * 64 + 1 * (j 1).val = (j 1).val; rw [e1]; omega

/-- the value block of every point is the whole third argument -/
theorem iblk2_eq (c : Dev nD) (t : Fin cfg0.N) : (iblk m c 2 t : Vec Ideal S8192x64 .f32) = argV m c := by
  obtain ⟨-, -, -, -, e0, e1, -⟩ := idx_facts t
  funext j
  unfold iblk
  rw [View.read_apply]
  show V m c main_arg2 _ = m ((c : Thread nD τ).loc main_arg2) _
  unfold V
  congr 1
  funext a
  apply Fin.ext
  match a with
  | ⟨0, _⟩ => show win0_2.index t (0 : Fin 2) * 8192 + 1 * (j 0).val = (j 0).val; rw [e0]; omega
  | ⟨1, _⟩ => show win0_2.index t (1 : Fin 2) * 64 + 1 * (j 1).val = (j 1).val; rw [e1]; omega

/-! ## One point's two output blocks are blocks of the specification -/

section Point
variable (t : Fin 8) (x0 : Vec Ideal S1024x64 .f32) (qa ka va : Arr)
  (hx0 : ∀ (r : Fin 1024) (c : Fin 64), x0 (ix2 r c) = qa (ix2 (rowAt t r) c))
  (hq : ∀ i, ∃ a : ℝ, qa i = (a : EReal)) (hk : ∀ i, ∃ a : ℝ, ka i = (a : EReal))
  (hv : ∀ i, ∃ a : ℝ, va i = (a : EReal))

include hx0 hq hk hv in
/-- the first output block at `y` is the specification's first result at the array index `i` that `y` lands on -/
theorem point_O (y : S1024x64.Idx) (i : S8192x64.Idx) (hi0 : (i 0).val = 1024 * t.val + (y 0).val)
    (hi1 : (i 1).val = (y 1).val) :
    k0_pay6 (finalState x0 ka va).2.2 (finalState x0 ka va).2.1 y = outO qa ka va i := by
  obtain ⟨r, d, rfl⟩ : ∃ (r : Fin 1024) (d : Fin 64), y = ix2 r d := ⟨y 0, y 1, eq_ix2 y⟩
  obtain rfl : i = ix2 (rowAt t r) d := funext fun a => Fin.ext (by
    match a with
    | ⟨0, _⟩ => exact hi0
    | ⟨1, _⟩ => exact hi1)
  obtain ⟨h1, h2⟩ := point_sums t x0 qa ka va hx0 hq hk hv r d
  rw [pay6_apply, h1, h2]
  rfl

include hx0 hq hk hv in
/-- the second output block at `y` is the specification's second result at the array index it lands on -/
theorem point_L (y : S1024x1.Idx) (i : S8192x1.Idx) (hi0 : (i 0).val = 1024 * t.val + (y 0).val) :
    (finalState x0 ka va).2.1 y = outL qa ka i := by
  obtain ⟨r, u, rfl⟩ : ∃ (r : Fin 1024) (u : Fin 1), y = ix2 r u := ⟨y 0, y 1, eq_ix2 y⟩
  obtain rfl : u = 0 := Subsingleton.elim _ _
  obtain ⟨h1, -⟩ := point_sums t x0 qa ka va hx0 hq hk hv r (0 : Fin 64)
  rw [h1]
  show den qa ka (rowAt t r) = den qa ka (i 0)
  exact congrArg (den qa ka) (Fin.ext hi0.symm)

end Point

/-! ## What each point writes back, the cover, and the arrays after the run -/

section Real
variable (hq : ∀ c i, ∃ a : ℝ, argQ m c i = (a : EReal)) (hk : ∀ c i, ∃ a : ℝ, argK m c i = (a : EReal))
  (hv : ∀ c i, ∃ a : ℝ, argV m c i = (a : EReal))

include hq hk hv in
/-- what point t writes back to the first result is block t of the specification's first result -/
theorem flushed3_eq (c : Dev nD) (t : Fin cfg0.N) :
    (dats m 0 c).flushed 3 t
      = ((cfg0.win 3).blk t).view.read (Elt Ideal) (outO (argQ m c) (argK m c) (argV m c)) := by
  rw [flushed3_A, out3_eq (F := Ideal) c (grid0.coords t) (ms0_0 t) (hs0_0 t) (ms0_1 t) (hs0_1 t) (ms0_2 t) (hs0_2 t)
    (ms0_3 t) (hs0_3 t) (ms0_4 t) (hs0_4 t) scM0_0 (Memref.isWhole_whole _) scM0_1 (Memref.isWhole_whole _) scM0_2
    (Memref.isWhole_whole _) (iblk m c 0 t) (iblk m c 1 t) (iblk m c 2 t)]
  rw [iblk1_eq m c t, iblk2_eq m c t]
  obtain ⟨-, -, -, -, -, -, e0, e1, -⟩ := idx_facts t
  funext y
  show k0_pay6 (finalState (iblk m c 0 t) (argK m c) (argV m c)).2.2 (finalState (iblk m c 0 t) (argK m c) (argV m c)).2.1 y
    = outO (argQ m c) (argK m c) (argV m c) (((cfg0.win 3).blk t).view.emb y)
  refine point_O (pt t) (iblk m c 0 t) (argQ m c) (argK m c) (argV m c) (iblk0_apply m c t) (hq c) (hk c) (hv c) y _ ?_ ?_
  · show win0_3.index t (0 : Fin 2) * 1024 + 1 * (y 0).val = 1024 * t.val + (y 0).val
    rw [e0]; omega
  · show win0_3.index t (1 : Fin 2) * 64 + 1 * (y 1).val = (y 1).val
    rw [e1]; omega

include hq hk hv in
/-- what point t writes back to the second result is block t of the specification's second result -/
theorem flushed4_eq (c : Dev nD) (t : Fin cfg0.N) :
    (dats m 0 c).flushed 4 t
      = ((cfg0.win 4).blk t).view.read (Elt Ideal) (outL (argQ m c) (argK m c)) := by
  rw [flushed4_A, out4_eq (F := Ideal) c (grid0.coords t) (ms0_0 t) (hs0_0 t) (ms0_1 t) (hs0_1 t) (ms0_2 t) (hs0_2 t)
    (ms0_3 t) (hs0_3 t) (ms0_4 t) (hs0_4 t) scM0_0 (Memref.isWhole_whole _) scM0_1 (Memref.isWhole_whole _) scM0_2
    (Memref.isWhole_whole _) (iblk m c 0 t) (iblk m c 1 t) (iblk m c 2 t)]
  rw [iblk1_eq m c t, iblk2_eq m c t]
  obtain ⟨-, -, -, -, -, -, -, -, e0, e1, -⟩ := idx_facts t
  funext y
  show (finalState (iblk m c 0 t) (argK m c) (argV m c)).2.1 y
    = outL (argQ m c) (argK m c) (((cfg0.win 4).blk t).view.emb y)
  refine point_L (pt t) (iblk m c 0 t) (argQ m c) (argK m c) (argV m c) (iblk0_apply m c t) (hq c) (hk c) (hv c) y _ ?_
  show win0_4.index t (0 : Fin 2) * 1024 + 1 * (y 0).val = 1024 * t.val + (y 0).val
  rw [e0]; omega

/-- an index of the first result is in point t's block iff each coordinate is in the block's range -/
theorem mem_blk3 (t : Fin cfg0.N) (i : S8192x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v0_0).slice (win0_3.rect t)).set ↔ _
  rw [View.set_slice_whole, Rect.mem_set_unit]
  exact Iff.rfl

theorem mem_blk4 (t : Fin cfg0.N) (i : S8192x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v0_1).slice (win0_4.rect t)).set ↔ _
  rw [View.set_slice_whole, Rect.mem_set_unit]
  exact Iff.rfl

/-- every row of the first result is in the block of the point that holds it: row R in point R / 1024 -/
theorem cover3 (i : S8192x64.Idx) :
    ∃ t : Fin cfg0.N, (cfg0.win 3).flush t = true ∧ i ∈ ((cfg0.win 3).blk t).view.set := by
  have hi0 : (i 0).val < 8192 := (i 0).isLt
  have hi1 : (i 1).val < 64 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨-, -, -, -, -, -, e0, e1, -⟩ := idx_facts t
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 64 ≤ (i 1).val ∧ (i 1).val < win0_3.index t (1 : Fin 2) * 64 + 64
    rw [e1]; omega

theorem cover4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨-, -, -, -, -, -, -, -, e0, e1, -⟩ := idx_facts t
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 1 ≤ (i 1).val ∧ (i 1).val < win0_4.index t (1 : Fin 2) * 1 + 1
    rw [e1]; omega

include hq hk hv in
/-- after the run the first result array is the specification's first result -/
theorem final3 (c : Dev nD) : (dats m 0 c).arrAt 3 cfg0.N = outO (argQ m c) (argK m c) (argV m c) :=
  (dats m 0 c).arrAt_eq_of_cover 3 (outO (argQ m c) (argK m c) (argV m c))
    (fun t _ => flushed3_eq m hq hk hv c t) cover3

include hq hk hv in
/-- after the run the second result array is the specification's second result -/
theorem final4 (c : Dev nD) : (dats m 0 c).arrAt 4 cfg0.N = outL (argQ m c) (argK m c) :=
  (dats m 0 c).arrAt_eq_of_cover 4 (outL (argQ m c) (argK m c))
    (fun t _ => flushed4_eq m hq hk hv c t) cover4

include hq hk hv in
/-- The kernel's run, read: both result arrays at the specification of the arguments, the arguments unchanged. -/
theorem run : θ_run defs (onTc (τ := τ) (main (F := Ideal))) ⟨m, fun _ => 0, ρ⟩ fun r => ∀ c : Dev nD,
      r.2.mem ((c : Thread nD τ).loc main_v0_0) = outO (argQ m c) (argK m c) (argV m c)
      ∧ r.2.mem ((c : Thread nD τ).loc main_v0_1) = outL (argQ m c) (argK m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m hq hk hv c), (h c).2.1.trans (final4 m hq hk hv c),
      (h c).2.2⟩)
    (run_blocks m ρ)

end Real

end Cert.KernelIdeal.Whole

end
-- ==== Proof.RefIsSpec.lean ====
/-
  The reference computes the specification.

  Its stages are read at an index one operation at a time: the scores are the dot products times the literal 1/8,
  the row maximum (a fold of max from −∞ over the row, read here by hand) is the largest score of the row, the
  exponentials are the weights, their row sums the second result, and the first result is the weighted sums of the
  values divided by those row sums.
-/
import proofs.«148156_j23270132809797_2_alg».proof.Proof.Gen.ReferenceIdeal.Read
import proofs.«148156_j23270132809797_2_alg».proof.Proof.Spec
import proofs.«148156_j23270132809797_2_alg».proof.Proof.LibMatrixAtIndex
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.KernelIdeal.Pay
open Idealize.ShloMosaic Idealize.ShloMosaic.ValueIdx Cert.Attn Cert.Attention
open scoped BigOperators

/-- the maximum of a finite family from the word of −∞, taken with the float maximum, is its maximum from −∞ -/
theorem fold_maximumf_negInf {n : ℕ} (f : Fin n → EReal) :
    (Finset.univ : Finset (Fin n)).fold (FloatOps.maximumf (F := Ideal) (φ := .f32))
      (FloatOps.ofBits (F := Ideal) .f32 0xFF800000#32) f = fmax f := by
  show (Finset.univ : Finset (Fin n)).fold max (Ideal.ofBits .f32 0xFF800000#32) f = _
  rw [ofBits_negInf_f32]; rfl

section Stages
variable (x0 x1 x2 : (⟨S8192x64, .f32⟩ : BufTy).Contents (Elt Ideal))

/-- the scaled scores -/
theorem v3_eq (R n : Fin 8192) : val_main_v3 (F := Ideal) x0 x1 (ix2 R n) = score x0 x1 R n := by
  rw [val_main_v3_apply, val_main_v1_apply, val_main_v2_apply, val_main_cst_apply]
  unfold score
  show (∑ c : Fin 64, x0 (lidx_main_v1 (ix2 R n) c) * val_main_v0 (F := Ideal) x1 (ridx_main_v1 (ix2 R n) c))
      * Ideal.ofBits .f32 0x3E000000#32 = _
  refine congrArg (· * Ideal.ofBits .f32 0x3E000000#32) (Finset.sum_congr rfl fun c _ => ?_)
  rw [val_main_v0_apply]
  have e1 : lidx_main_v1 (ix2 R n) c = ix2 R c :=
    funext fun a => Fin.ext (by match a with | ⟨0, _⟩ => rfl | ⟨1, _⟩ => rfl)
  have e2 : idx_main_v0 (ridx_main_v1 (ix2 R n) c) = ix2 n c :=
    funext fun a => Fin.ext (by match a with | ⟨0, _⟩ => rfl | ⟨1, _⟩ => rfl)
  rw [e1, e2]

/-- the row maximum is the largest score of the row -/
theorem v4_eq (R : Fin 8192) : val_main_v4 (F := Ideal) x0 x1 (ix1 R) = fmax (score x0 x1 R) := by
  unfold val_main_v4
  have h : S8192x8192.Reduces [1] S8192 := by decide
  rw [Host.reduce_eq_fold_single FloatOps.maximumf _ _ reducesTo_S8192x8192_S8192_d1 h h_S_ (ix1 R),
    val_main_cst_0_apply]
  have hf : (val_main_v3 (F := Ideal) x0 x1 ∘ h.lift (ix1 R)) = score x0 x1 R := funext fun (n : Fin 8192) => by
    show val_main_v3 (F := Ideal) x0 x1 (h.lift (ix1 R) n) = _
    rw [lift_row h R n, v3_eq]
  rw [hf]
  exact fold_maximumf_negInf _

/-- the exponentials are the weights -/
theorem v8_eq (R n : Fin 8192) : val_main_v8 (F := Ideal) x0 x1 (ix2 R n) = weight x0 x1 R n := by
  rw [val_main_v8_apply, val_main_v7_apply, val_main_v6_apply, val_main_v5_apply]
  have e : idx_main_v5 (idx_main_v6 (ix2 R n)) = ix1 R :=
    funext fun a => Fin.ext (by match a with | ⟨0, _⟩ => rfl)
  rw [e, v3_eq, v4_eq]
  rfl

/-- the second result: the row sums of the weights -/
theorem v10_eq (R : Fin 8192) (u : Fin 1) : val_main_v10 (F := Ideal) x0 x1 (ix2 R u) = den x0 x1 R := by
  rw [val_main_v10_apply, val_main_v9_apply, val_main_cst_1_apply]
  show Ideal.ofBits .f32 0x00000000#32 + _ = _
  rw [Ideal.ofBits_zero_f32, zero_add]
  unfold den
  refine Finset.sum_congr rfl fun n _ => ?_
  have e : idx_main_v9 (idx_main_v10 (ix2 R u)) n = ix2 R n :=
    funext fun a => Fin.ext (by match a with | ⟨0, _⟩ => rfl | ⟨1, _⟩ => rfl)
  rw [e, v8_eq]

/-- the first result: weighted sums of the values over the row sums -/
theorem v13_eq (R : Fin 8192) (d : Fin 64) :
    val_main_v13 (F := Ideal) x0 x1 x2 (ix2 R d) = Ideal.div (num x0 x1 x2 R d) (den x0 x1 R) := by
  rw [val_main_v13_apply, val_main_v11_apply, val_main_v12_apply]
  have e : idx_main_v12 (ix2 R d) = ix2 R (0 : Fin 1) :=
    funext fun a => Fin.ext (by match a with | ⟨0, _⟩ => rfl | ⟨1, _⟩ => rfl)
  rw [e, v10_eq]
  show Ideal.div _ _ = _
  refine congrArg (Ideal.div · (den x0 x1 R)) ?_
  unfold num
  refine Finset.sum_congr rfl fun n _ => ?_
  have e1 : lidx_main_v11 (ix2 R d) n = ix2 R n :=
    funext fun a => Fin.ext (by match a with | ⟨0, _⟩ => rfl | ⟨1, _⟩ => rfl)
  have e2 : ridx_main_v11 (ix2 R d) n = ix2 n d :=
    funext fun a => Fin.ext (by match a with | ⟨0, _⟩ => rfl | ⟨1, _⟩ => rfl)
  rw [e1, e2, v8_eq]

end Stages

/-- The reference's first result is the specification's. -/
theorem result_O (x0 x1 x2 : (⟨S8192x64, .f32⟩ : BufTy).Contents (Elt Ideal)) :
    val_main_v13 (F := Ideal) x0 x1 x2 = outO x0 x1 x2 := funext fun i => by
  rw [eq_ix2 i]
  exact v13_eq x0 x1 x2 (i 0) (i 1)

/-- The reference's second result is the specification's. -/
theorem result_L (x0 x1 : (⟨S8192x64, .f32⟩ : BufTy).Contents (Elt Ideal)) :
    val_main_v10 (F := Ideal) x0 x1 = outL x0 x1 := funext fun i => by
  rw [eq_ix2 i]
  exact v10_eq x0 x1 (i 0) (i 1)

end Cert.ReferenceIdeal.RefValue

end
-- ==== Proof.Finite.lean ====
/-
  From the precondition to real entries.

  The precondition says that in each of the three argument arrays every entry x satisfies |x| < +∞, the three
  `all`s joined by `and`. On the extended reals |x| = max x (−x) is +∞ exactly at the two infinities, so every
  entry of every argument is a real number.
-/
import proofs.«148156_j23270132809797_2_alg».proof.Pre_finite_inputs
import proofs.«148156_j23270132809797_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs

/-- the shape of a scalar has one index -/
instance subsingleton_scalar_idx : Subsingleton S_.Idx := ⟨fun a b => funext fun d => d.elim0⟩

/-- The word `0x7F800000` is +∞. -/
theorem ofBits_posInf_f32 : Ideal.ofBits .f32 0x7F800000#32 = ⊤ := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

theorem ofBool_eq_one {b : Bool} (h : BitVec.ofBool b = 1#1) : b = true := by
  cases b
  · exact absurd h (by decide)
  · rfl

variable [Facts]

/-- One `all (|a| < +∞)` gives a real number at every index of `a`. -/
theorem entry_real (a : FVec Ideal S8192x64 .f32)
    (h : Host.reduce IntOp.andi (cmpf .olt (Host.absf a)
        (broadcastInDim S8192x64 ![] Facts.bcast_S_S8192x64 (constant (F := Ideal) S_ .f32 0x7F800000#32)))
        (constantI S_ 1 1#1) Facts.reducesTo_S8192x64_S_d0_1 Facts.h_S_ ValueIdx.ix0 = 1#1)
    (i : S8192x64.Idx) : ∃ r : ℝ, a i = (r : EReal) := by
  have hi := Host.reduce_andi_all _ _ _ _ _ h i
  have hi' : Ideal.cmp .olt (max (a i) (-(a i))) (Ideal.ofBits .f32 0x7F800000#32) = 1#1 := hi
  rw [ofBits_posInf_f32] at hi'
  exact real_of_abs_lt_top _ (of_decide_eq_true (ofBool_eq_one hi'))

/-- The precondition's function being all ones makes every entry of the three arrays a real number. -/
theorem real_of_pre (a b c : FVec Ideal S8192x64 .f32) (h : fn (F := Ideal) a b c = fun _ => 1#1) :
    (∀ i, ∃ r : ℝ, a i = (r : EReal)) ∧ (∀ i, ∃ r : ℝ, b i = (r : EReal)) ∧ (∀ i, ∃ r : ℝ, c i = (r : EReal)) := by
  have h0 := congrFun h ValueIdx.ix0
  dsimp only [fn] at h0
  obtain ⟨h8, h3⟩ := IntOp.andi_eq_one.mp h0
  obtain ⟨h1, h2⟩ := IntOp.andi_eq_one.mp h8
  exact ⟨entry_real a h1, entry_real b h2, entry_real c h3⟩

end Cert.Finite

end
-- ==== Proof.lean ====
/-
  Attention over 8192 rows of 64 entries, computed tile by tile, against attention computed in one pass.

  The kernel visits the keys and values in eight tiles of 1024 rows per block of 1024 queries, carrying for each
  query row a running maximum of the scores, a denominator and a numerator taken relative to that maximum, and
  dividing at the end; the reference forms all the scores at once, subtracts each row's maximum, exponentiates, and
  divides the weighted sums of the values by the row sums of the weights. On the extended reals, for finite inputs,
  both give, at row R and column d,
      (∑ₙ exp (s(R,n) − M(R))·v(n,d)) / (∑ₙ exp (s(R,n) − M(R))),   and   ∑ₙ exp (s(R,n) − M(R)),
  with s(R,n) = (∑_c q(R,c)·k(n,c))·⅛ and M(R) the largest score of row R.

  Two laws join the two sides, and both need the inputs to be real numbers: the kernel scales the queries by 1/8
  before the dot products where the reference scales the dot products (distributivity), and moving the running sums
  from an old maximum to a new one multiplies them by exp (old − new) (exp (a − b)·exp (x − a) = exp (x − b)); the
  first update starts from −∞, where exp gives 0 and the empty sums are 0. A change of float format is the identity
  at the exact values, a matrix product into a zero accumulator is the plain sum, and the order of the sums does not
  matter.

  Proof/Body.lean and Proof/BodyOut.lean read the kernel's body at one grid point as an iterate of one tile's update;
  Proof/AtIndex.lean, Proof/RowRun.lean and Proof/PointValue.lean read that iterate at one row and find the sums
  above; Proof/Whole.lean puts the eight blocks of rows together; Proof/RefIsSpec.lean reads the reference;
  Proof/Finite.lean turns the precondition into real entries; Proof/Spec.lean states the common result.
-/
import proofs.«148156_j23270132809797_2_alg».proof.Defs
import proofs.«148156_j23270132809797_2_alg».proof.Proof.Gen.Kernel
import proofs.«148156_j23270132809797_2_alg».proof.Proof.Gen.Kernel.Skeleton
import proofs.«148156_j23270132809797_2_alg».proof.Proof.Gen.Kernel.Loops
import proofs.«148156_j23270132809797_2_alg».proof.Proof.Gen.Kernel.Launch
import proofs.«148156_j23270132809797_2_alg».proof.Proof.Gen.Kernel.Points
import proofs.«148156_j23270132809797_2_alg».proof.Proof.Gen.Kernel.Frame
import proofs.«148156_j23270132809797_2_alg».proof.Proof.Gen.KernelIdeal
import proofs.«148156_j23270132809797_2_alg».proof.Proof.Gen.KernelIdeal.Skeleton
import proofs.«148156_j23270132809797_2_alg».proof.Proof.Gen.KernelIdeal.Loops
import proofs.«148156_j23270132809797_2_alg».proof.Proof.Gen.KernelIdeal.Launch
import proofs.«148156_j23270132809797_2_alg».proof.Proof.Gen.KernelIdeal.Points
import proofs.«148156_j23270132809797_2_alg».proof.Proof.Gen.KernelIdeal.Frame
import proofs.«148156_j23270132809797_2_alg».proof.Proof.Gen.ReferenceIdeal
import proofs.«148156_j23270132809797_2_alg».proof.Proof.Gen.Pre_finite_inputs
import proofs.«148156_j23270132809797_2_alg».proof.Proof.Gen.KernelIdeal.Value
import proofs.«148156_j23270132809797_2_alg».proof.Proof.Gen.ReferenceIdeal.Run
import proofs.«148156_j23270132809797_2_alg».proof.Proof.Gen.ReferenceIdeal.Read
import proofs.«148156_j23270132809797_2_alg».proof.Proof.Whole
import proofs.«148156_j23270132809797_2_alg».proof.Proof.RefIsSpec
import proofs.«148156_j23270132809797_2_alg».proof.Proof.Finite
import Idealize.ShloMosaic.Adequacy
import Idealize.ShloMosaic.Init

noncomputable section

namespace Cert.Proof

open Idealize.ShloMosaic Idealize.ShloMosaic.TcCoe Idealize.SL.Sem Cert.Attention

/-- the kernel as printed runs and leaves its arguments alone -/
theorem frame_k : Cert.frame_Kernel := fun m ρ _ => Cert.Kernel.Gen.frame m ρ

/-- so does the kernel read at the exact values -/
theorem frame_ki : Cert.frame_KernelIdeal := fun m ρ _ => Cert.KernelIdeal.Gen.frame m ρ

/-- and the reference: its run, with the results dropped -/
theorem frame_ri : Cert.frame_ReferenceIdeal := fun m ρ _ =>
  (θ_run Cert.ReferenceIdeal.defs _ _).mono (fun _ h c => (h c).2.2)
    (Cert.ReferenceIdeal.Value.run (F := Ideal) m ρ)

/-- nothing was rewritten on the way to the exact values -/
theorem preserves : Cert.preserves_Kernel_KernelIdeal := trivial

/-- For finite inputs both programs end with the two results at the same functions of the arguments: the kernel by
    its eight blocks of rows, each the tile-by-tile recurrence run to its end; the reference by its operations read
    in order. -/
theorem algebraic : Cert.algebraic_KernelIdeal_ReferenceIdeal := by
  intro m ρ m' ρ' hpre hagree
  have hreal := fun c => Cert.Finite.real_of_pre _ _ _ (hpre c)
  refine ⟨fun c => outO (Cert.KernelIdeal.Whole.argQ m c) (Cert.KernelIdeal.Whole.argK m c) (Cert.KernelIdeal.Whole.argV m c),
    fun c => outL (Cert.KernelIdeal.Whole.argQ m c) (Cert.KernelIdeal.Whole.argK m c),
    Cert.KernelIdeal.Whole.run m ρ (fun c => (hreal c).1) (fun c => (hreal c).2.1) (fun c => (hreal c).2.2), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2]
    exact (Cert.ReferenceIdeal.Read.val_main_v13_eq _ _ _).trans (Cert.ReferenceIdeal.RefValue.result_O _ _ _)
  · rw [(hagree c).1, (hagree c).2.1]
    exact (Cert.ReferenceIdeal.Read.val_main_v10_eq _ _).trans (Cert.ReferenceIdeal.RefValue.result_L _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
